-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S32768 : Shape := ⟨1, ![32768]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x2048 .f32) (main_arg1 : IVec S32768 32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_c_0 : IVec S_ 32 := constantI S_ 32 0#32
  let main_v4 : IVec S32768 32 := broadcastInDim S32768 ![] bcast_S_S32768 main_c_0
  let main_v5 : IVec S32768 1 := cmpi .sge main_arg1 main_v4
  let main_c_1 : IVec S_ 1 := constantI S_ 1 1#1
  let main_v6 : IVec S_ 1 := (fun x v => Host.reduce IntOp.andi x v reducesTo_S32768_S_d0 h_S_) main_v5 main_c_1
  let main_v7 : IVec S_ 1 := andi main_v3 main_v6
  let main_c_2 : IVec S_ 32 := constantI S_ 32 2048#32
  let main_v8 : IVec S32768 32 := broadcastInDim S32768 ![] bcast_S_S32768 main_c_2
  let main_v9 : IVec S32768 1 := cmpi .slt main_arg1 main_v8
  let main_c_3 : IVec S_ 1 := constantI S_ 1 1#1
  let main_v10 : IVec S_ 1 := (fun x v => Host.reduce IntOp.andi x v reducesTo_S32768_S_d0 h_S_) main_v9 main_c_3
  let main_v11 : IVec S_ 1 := andi main_v7 main_v10
  main_v11
-- ==== Kernel.lean ====
abbrev S32768x2048 : Shape := ⟨2, ![32768, 2048]⟩
abbrev S32768 : Shape := ⟨1, ![32768]⟩
abbrev S32768x1 : Shape := ⟨2, ![32768, 1]⟩
abbrev S512x2048 : Shape := ⟨2, ![512, 2048]⟩
abbrev S512x1 : Shape := ⟨2, ![512, 1]⟩
abbrev S512 : Shape := ⟨1, ![512]⟩
abbrev S_ : Shape := ⟨0, ![]⟩
abbrev S2048 : Shape := ⟨1, ![2048]⟩
abbrev S1024x1 : Shape := ⟨2, ![1024, 1]⟩

abbrev nBuf : Space → Nat
  | .hbm => 56
  | .vmem => 24
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S32768x1, .i32⟩
  | .hbm, ⟨3, _⟩ => ⟨S32768x1, .f32⟩
  | .hbm, ⟨4, _⟩ => ⟨S32768x1, .f32⟩
  | .hbm, ⟨5, _⟩ => ⟨S32768x1, .f32⟩
  | .hbm, ⟨6, _⟩ => ⟨S32768x1, .f32⟩
  | .hbm, ⟨7, _⟩ => ⟨S32768x1, .f32⟩
  | .hbm, ⟨8, _⟩ => ⟨S32768, .f32⟩
  | .hbm, ⟨9, _⟩ => ⟨S32768, .f32⟩
  | .hbm, ⟨10, _⟩ => ⟨S_, .f32⟩
  | .hbm, ⟨11, _⟩ => ⟨S2048, .f32⟩
  | .hbm, ⟨12, _⟩ => ⟨S32768x1, .i32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S32768x1, .i32⟩
  | .hbm, ⟨17, _⟩ => ⟨S2048, .f32⟩
  | .hbm, ⟨18, _⟩ => ⟨S_, .f32⟩
  | .hbm, ⟨19, _⟩ => ⟨S32768, .f32⟩
  | .hbm, ⟨20, _⟩ => ⟨S_, .f32⟩
  | .hbm, ⟨21, _⟩ => ⟨S2048, .f32⟩
  | .hbm, ⟨22, _⟩ => ⟨S32768x1, .i32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S2048, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S_, .i32⟩
  | .hbm, ⟨45, _⟩ => ⟨S32768, .i32⟩
  | .hbm, ⟨46, _⟩ => ⟨S32768, .i32⟩
  | .hbm, ⟨47, _⟩ => ⟨S32768, .i32⟩
  | .hbm, ⟨48, _⟩ => ⟨S32768x1, .i32⟩
  | .hbm, ⟨49, _⟩ => ⟨S32768, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S32768_S32768x1 : S32768.ShapeCasts S32768x1
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x2048_d1_w32 : S512x2048.Iotas .tc 32 [1]
  broadcasts_S512x1_S512x2048 : S512x1.Broadcasts S512x2048
  reduces_S512x2048_S512 : S512x2048.Reduces [1] S512
  shapeCasts_S512_S512x1 : S512.ShapeCasts S512x1
  shapeCasts_S32768x1_S32768 : S32768x1.ShapeCasts S32768
  bcast_S_S2048 : S_.BroadcastsInDim S2048 (![] : Fin 0 → Fin S2048.rank)
  bcast_S32768_S32768x1_0 : S32768.BroadcastsInDim S32768x1 (![0] : Fin 1 → Fin S32768x1.rank)
  bcast_S_S32768 : S_.BroadcastsInDim S32768 (![] : Fin 0 → Fin S32768.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reducesTo_S32768x1_S_d0_1 : S32768x1.ReducesTo [0, 1] S_
  h_S_ : 0 < S_.numel
  scatter_S2048_S32768x1_S32768_n_0_0_1_wf : ScatterDims.WF S2048 S32768x1 S32768 [] [0] [0] 1
  gather_S2048_S32768x1_S32768_n_0_n_n_0_1_1_wf : GatherDims.WF S2048 S32768x1 S32768 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .i32 = 32 ∨ (Rect.block (s := S32768x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S32768x1.size a
  hwx0_2 : ∀ i : grid0.Coords, EltTy.bits .f32 = 32 ∨ (Rect.block (s := S32768x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S32768x1.size a
  hwx0_3 : ∀ i : grid0.Coords, EltTy.bits .f32 = 32 ∨ (Rect.block (s := S32768x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S32768x1.size a
  hwx0_4 : ∀ i : grid0.Coords, EltTy.bits .f32 = 32 ∨ (Rect.block (s := S32768x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S32768x1.size a
  hwx0_5 : ∀ i : grid0.Coords, EltTy.bits .f32 = 32 ∨ (Rect.block (s := S32768x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S32768x1.size a
  hwx0_6 : ∀ i : grid0.Coords, EltTy.bits .f32 = 32 ∨ (Rect.block (s := S32768x1) S512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S32768x1.size a
  hwx1_0 : ∀ i : grid1.Coords, EltTy.bits .f32 = 32 ∨ (Rect.block (s := S32768x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S32768x1.size a
  hwx1_1 : ∀ i : grid1.Coords, EltTy.bits .f32 = 32 ∨ (Rect.block (s := S32768x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S32768x1.size a
  hwx1_2 : ∀ i : grid1.Coords, EltTy.bits .f32 = 32 ∨ (Rect.block (s := S32768x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S32768x1.size a
  hwx1_3 : ∀ i : grid1.Coords, EltTy.bits .f32 = 32 ∨ (Rect.block (s := S32768x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S32768x1.size a
  hwx1_4 : ∀ i : grid1.Coords, EltTy.bits .f32 = 32 ∨ (Rect.block (s := S32768x1) S1024x1.size (cc1_transform_4 i) (hinb1_4 i)).WholeWords (EltTy.packing .f32)

variable [Facts₀]

def scatter_S2048_S32768x1_S32768_n_0_0_1 : ScatterDims S2048 S32768x1 S32768 where
  updateWindowDims := []
  insertedWindowDims := [0]
  scatterDimsToOperandDims := [0]
  indexVectorDim := 1
  wf := scatter_S2048_S32768x1_S32768_n_0_0_1_wf
def gather_S2048_S32768x1_S32768_n_0_n_n_0_1_1 : GatherDims S2048 S32768x1 S32768 where
  offsetDims := []
  collapsedSliceDims := [0]
  operandBatchingDims := []
  startIndicesBatchingDims := []
  startIndexMap := [0]
  indexVectorDim := 1
  sliceSizes := ![1]
  wf := gather_S2048_S32768x1_S32768_n_0_n_n_0_1_1_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_3) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_4) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1_2) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32768x2048 : Shape := ⟨2, ![32768, 2048]⟩
abbrev S32768 : Shape := ⟨1, ![32768]⟩
abbrev S_ : Shape := ⟨0, ![]⟩
abbrev S2048 : Shape := ⟨1, ![2048]⟩
abbrev S32768x1 : Shape := ⟨2, ![32768, 1]⟩
abbrev S32768x1x1 : Shape := ⟨3, ![32768, 1, 1]⟩
abbrev S1 : Shape := ⟨1, ![1]⟩
abbrev S1x1x1 : Shape := ⟨3, ![1, 1, 1]⟩
abbrev S1x2048 : Shape := ⟨2, ![1, 2048]⟩

abbrev nBuf : Space → Nat
  | .hbm => 136
  | .vmem => 0
  | .smem => 0
  | _ => 0

abbrev hbmTy0_0 (i : Nat) : BufTy := match i % 128 with
  | 0 => ⟨S32768x2048, .f32⟩
  | 1 => ⟨S32768, .i32⟩
  | 2 => ⟨S_, .f32⟩
  | 3 => ⟨S32768, .f32⟩
  | 4 => ⟨S32768x2048, .f32⟩
  | 5 => ⟨S_, .f32⟩
  | 6 => ⟨S32768, .f32⟩
  | 7 => ⟨S_, .f32⟩
  | 8 => ⟨S2048, .f32⟩
  | 9 => ⟨S32768x1, .i32⟩
  | 10 => ⟨S2048, .f32⟩
  | 11 => ⟨S_, .f32⟩
  | 12 => ⟨S2048, .f32⟩
  | 13 => ⟨S32768x1, .i32⟩
  | 14 => ⟨S2048, .f32⟩
  | 15 => ⟨S_, .f32⟩
  | 16 => ⟨S32768, .f32⟩
  | 17 => ⟨S_, .f32⟩
  | 18 => ⟨S2048, .f32⟩
  | 19 => ⟨S32768x1, .i32⟩
  | 20 => ⟨S2048, .f32⟩
  | 21 => ⟨S_, .f32⟩
  | 22 => ⟨S2048, .f32⟩
  | 23 => ⟨S2048, .f32⟩
  | 24 => ⟨S_, .f32⟩
  | 25 => ⟨S2048, .f32⟩
  | 26 => ⟨S2048, .f32⟩
  | 27 => ⟨S2048, .f32⟩
  | 28 => ⟨S2048, .f32⟩
  | 29 => ⟨S2048, .f32⟩
  | 30 => ⟨S2048, .f32⟩
  | 31 => ⟨S_, .f32⟩
  | 32 => ⟨S2048, .f32⟩
  | 33 => ⟨S2048, .f32⟩
  | 34 => ⟨S2048, .f32⟩
  | 35 => ⟨S_, .f32⟩
  | 36 => ⟨S2048, .f32⟩
  | 37 => ⟨S2048, .f32⟩
  | 38 => ⟨S_, .i32⟩
  | 39 => ⟨S32768, .i32⟩
  | 40 => ⟨S32768, .i1⟩
  | 41 => ⟨S_, .i32⟩
  | 42 => ⟨S32768, .i32⟩
  | 43 => ⟨S32768, .i32⟩
  | 44 => ⟨S32768, .i32⟩
  | 45 => ⟨S32768x1, .i32⟩
  | 46 => ⟨S32768, .f32⟩
  | 47 => ⟨S32768x1, .i32⟩
  | 48 => ⟨S_, .i32⟩
  | 49 => ⟨S32768x1, .i32⟩
  | 50 => ⟨S32768x1, .i1⟩
  | 51 => ⟨S_, .i32⟩
  | 52 => ⟨S32768x1, .i32⟩
  | 53 => ⟨S32768x1, .i32⟩
  | 54 => ⟨S32768x1, .i32⟩
  | 55 => ⟨S32768x1x1, .i32⟩
  | 56 => ⟨S1, .i32⟩
  | 57 => ⟨S_, .i32⟩
  | 58 => ⟨S32768x1x1, .i32⟩
  | 59 => ⟨S32768x1x1, .i1⟩
  | 60 => ⟨S1x1x1, .i32⟩
  | 61 => ⟨S32768x1x1, .i32⟩
  | 62 => ⟨S32768x1x1, .i1⟩
  | 63 => ⟨S32768x1x1, .i1⟩
  | 64 => ⟨S_, .i1⟩
  | 65 => ⟨S32768x1, .i1⟩
  | 66 => ⟨S32768x1, .f32⟩
  | 67 => ⟨S_, .f32⟩
  | 68 => ⟨S32768x1, .f32⟩
  | 69 => ⟨S32768x1, .f32⟩
  | 70 => ⟨S32768, .f32⟩
  | 71 => ⟨S_, .f32⟩
  | 72 => ⟨S32768, .f32⟩
  | 73 => ⟨S32768, .i1⟩
  | 74 => ⟨S32768, .f32⟩
  | 75 => ⟨S_, .f32⟩
  | 76 => ⟨S32768, .f32⟩
  | 77 => ⟨S32768, .f32⟩
  | 78 => ⟨S32768, .f32⟩
  | 79 => ⟨S_, .f32⟩
  | 80 => ⟨S32768, .f32⟩
  | 81 => ⟨S32768, .f32⟩
  | 82 => ⟨S32768, .f32⟩
  | 83 => ⟨S32768x1, .i32⟩
  | 84 => ⟨S2048, .i32⟩
  | 85 => ⟨S1x2048, .i32⟩
  | 86 => ⟨S32768x2048, .i32⟩
  | 87 => ⟨S32768x2048, .i32⟩
  | 88 => ⟨S32768x2048, .i1⟩
  | 89 => ⟨S32768x1, .f32⟩
  | 90 => ⟨S32768x2048, .f32⟩
  | 91 => ⟨S32768x2048, .f32⟩
  | 92 => ⟨S_, .f32⟩
  | 93 => ⟨S32768, .f32⟩
  | 94 => ⟨S_, .f32⟩
  | 95 => ⟨S32768, .f32⟩
  | 96 => ⟨S32768, .f32⟩
  | 97 => ⟨S32768x1, .f32⟩
  | 98 => ⟨S32768x2048, .f32⟩
  | 99 => ⟨S32768x2048, .f32⟩
  | 100 => ⟨S32768x2048, .f32⟩
  | 101 => ⟨S_, .f32⟩
  | 102 => ⟨S32768, .f32⟩
  | 103 => ⟨S32768x1, .f32⟩
  | 104 => ⟨S32768x1, .f32⟩
  | 105 => ⟨S32768x2048, .f32⟩
  | 106 => ⟨S32768x2048, .f32⟩
  | 107 => ⟨S32768x1, .i32⟩
  | 108 => ⟨S_, .i32⟩
  | 109 => ⟨S32768x1, .i32⟩
  | 110 => ⟨S32768x1, .i1⟩
  | 111 => ⟨S_, .i32⟩
  | 112 => ⟨S32768x1, .i32⟩
  | 113 => ⟨S32768x1, .i32⟩
  | 114 => ⟨S32768x1, .i32⟩
  | 115 => ⟨S32768x1x1, .i32⟩
  | 116 => ⟨S1, .i32⟩
  | 117 => ⟨S_, .i32⟩
  | 118 => ⟨S32768x1x1, .i32⟩
  | 119 => ⟨S32768x1x1, .i1⟩
  | 120 => ⟨S1x1x1, .i32⟩
  | 121 => ⟨S32768x1x1, .i32⟩
  | 122 => ⟨S32768x1x1, .i1⟩
  | 123 => ⟨S32768x1x1, .i1⟩
  | 124 => ⟨S_, .i1⟩
  | 125 => ⟨S32768x1, .i1⟩
  | 126 => ⟨S32768x1, .f32⟩
  | 127 => ⟨S_, .f32⟩
  | _ => ⟨S32768x2048, .f32⟩

abbrev hbmTy0_1 (i : Nat) : BufTy := match i % 128 with
  | 0 => ⟨S32768x1, .f32⟩
  | 1 => ⟨S32768x1, .f32⟩
  | 2 => ⟨S32768, .f32⟩
  | 3 => ⟨S32768, .f32⟩
  | 4 => ⟨S_, .f32⟩
  | 5 => ⟨S_, .f32⟩
  | 6 => ⟨S_, .f32⟩
  | 7 => ⟨S_, .f32⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_9 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_cst : Ref sig .tc := ⟨.hbm, 67, rfl⟩
abbrev main_call0_v14 : Ref sig .tc := ⟨.hbm, 68, rfl⟩
abbrev main_v34 : Ref sig .tc := ⟨.hbm, 69, rfl⟩
abbrev main_v35 : Ref sig .tc := ⟨.hbm, 70, rfl⟩
abbrev main_cst_10 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_11 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_12 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_call2_v0 : Ref sig .tc := ⟨.hbm, 90, rfl⟩
abbrev main_v52 : Ref sig .tc := ⟨.hbm, 91, rfl⟩
abbrev main_call3_cst : Ref sig .tc := ⟨.hbm, 92, rfl⟩
abbrev main_call3_v0 : Ref sig .tc := ⟨.hbm, 93, rfl⟩
abbrev main_call3_cst_0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_cst_1 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_v53 : Ref sig .tc := ⟨.hbm, 106, rfl⟩
abbrev main_v54 : Ref sig .tc := ⟨.hbm, 107, rfl⟩
abbrev main_call4_c : Ref sig .tc := ⟨.hbm, 108, rfl⟩
abbrev main_call4_v0 : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_c_1 : Ref sig .tc := ⟨.hbm, 116, rfl⟩
abbrev main_call4_c_2 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_3 : Ref sig .tc := ⟨.hbm, 124, rfl⟩
abbrev main_call4_v12 : Ref sig .tc := ⟨.hbm, 125, rfl⟩
abbrev main_call4_v13 : Ref sig .tc := ⟨.hbm, 126, rfl⟩
abbrev main_call4_cst : Ref sig .tc := ⟨.hbm, 127, rfl⟩
abbrev main_call4_v14 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_cst_13 : Ref sig .tc := ⟨.hbm, 132, rfl⟩
abbrev main_v58 : Ref sig .tc := ⟨.hbm, 133, rfl⟩
abbrev main_cst_14 : Ref sig .tc := ⟨.hbm, 134, rfl⟩
abbrev main_v59 : Ref sig .tc := ⟨.hbm, 135, rfl⟩

abbrev nD : Nat := 1
abbrev τ : Topo := Topo.v7x

variable {F : FTy → Type} [FloatOps F]

class Facts₀ : Prop where
  reducesTo_S32768x2048_S32768_d1 : S32768x2048.ReducesTo [1] S32768
  h_S_ : 0 < S_.numel
  bcast_S_S2048 : S_.BroadcastsInDim S2048 (![] : Fin 0 → Fin S2048.rank)
  bcast_S32768_S32768x1_0 : S32768.BroadcastsInDim S32768x1 (![0] : Fin 1 → Fin S32768x1.rank)
  bcast_S_S32768 : S_.BroadcastsInDim S32768 (![] : Fin 0 → Fin S32768.rank)
  bcast_S_S32768x1 : S_.BroadcastsInDim S32768x1 (![] : Fin 0 → Fin S32768x1.rank)
  shapeCasts_S32768x1_S32768x1x1 : S32768x1.ShapeCasts S32768x1x1
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  shapeCasts_S32768x1_S32768 : S32768x1.ShapeCasts S32768
  bcast_S2048_S1x2048_1 : S2048.BroadcastsInDim S1x2048 (![1] : Fin 1 → Fin S1x2048.rank)
  bcast_S32768x1_S32768x2048_0_1 : S32768x1.BroadcastsInDim S32768x2048 (![0, 1] : Fin 2 → Fin S32768x2048.rank)
  bcast_S1x2048_S32768x2048_0_1 : S1x2048.BroadcastsInDim S32768x2048 (![0, 1] : Fin 2 → Fin S32768x2048.rank)
  reducesTo_S32768_S_d0 : S32768.ReducesTo [0] S_
  scatter_S2048_S32768x1_S32768_n_0_0_1_wf : ScatterDims.WF S2048 S32768x1 S32768 [] [0] [0] 1
  gather_S2048_S32768x1_S32768_n_0_n_n_0_1_1_wf : GatherDims.WF S2048 S32768x1 S32768 [] [0] [] [0] [] 1 ![1]
  gather_S32768x2048_S32768x1x1_S32768x1_n_1_0_0_1_2_11_wf : GatherDims.WF S32768x2048 S32768x1x1 S32768x1 [] [1] [0] [1] [0] 2 ![1, 1]

variable [Facts₀]

def scatter_S2048_S32768x1_S32768_n_0_0_1 : ScatterDims S2048 S32768x1 S32768 where
  updateWindowDims := []
  insertedWindowDims := [0]
  scatterDimsToOperandDims := [0]
  indexVectorDim := 1
  wf := scatter_S2048_S32768x1_S32768_n_0_0_1_wf
def gather_S2048_S32768x1_S32768_n_0_n_n_0_1_1 : GatherDims S2048 S32768x1 S32768 where
  offsetDims := []
  collapsedSliceDims := [0]
  operandBatchingDims := []
  startIndicesBatchingDims := []
  startIndexMap := [0]
  indexVectorDim := 1
  sliceSizes := ![1]
  wf := gather_S2048_S32768x1_S32768_n_0_n_n_0_1_1_wf
def gather_S32768x2048_S32768x1x1_S32768x1_n_1_0_0_1_2_11 : GatherDims S32768x2048 S32768x1x1 S32768x1 where
  offsetDims := []
  collapsedSliceDims := [1]
  operandBatchingDims := [0]
  startIndicesBatchingDims := [0]
  startIndexMap := [1]
  indexVectorDim := 2
  sliceSizes := ![1, 1]
  wf := gather_S32768x2048_S32768x1x1_S32768x1_n_1_0_0_1_2_11_wf

class Facts : Prop extends Facts₀ where

variable [Facts]
-- ==== Proof.KRun.lean ====
/-
  The kernel program's run, with its result named.

  @main is five segments in a row: host operations, the first launch, host operations, the second launch, host
  operations. The generated frame runs them over the thread state "every unscoped buffer at the boundary's contents" and
  ends with every unscoped buffer at the contents `W5` — the fold of the last stretch of host operations over the second
  launch's exit contents. Its last step reads only the two argument buffers out of that state; here the same launch is
  read at the result buffer as well, so the run's post names the result: it is `W5` at the result buffer.
-/
import proofs.«102043_j48644799594926_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_value : θ_run defs (onTc (τ := τ) (main (F := F))) ⟨m, fun _ => 0, ρ⟩ (fun r => ∀ c : Dev nD,
      r.2.mem ((c.tc : Thread nD τ).loc main_v37) = W5 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v37 (by decide)),
       (h c _ (mem_uc main_arg0 (by decide))).trans (W5_main_arg0 m ρ c),
       (h c _ (mem_uc main_arg1 (by decide))).trans (W5_main_arg1 m ρ c)⟩)

end Cert.KernelIdeal.RunValue

end
-- ==== Proof.LibRowOps.lean ====
/-
  What a softmax over the rows of an [a, b] array is made of, read at an index on the extended reals:
    * a row statistic y : [a] kept as a column — cast to [a, 1], then broadcast to [a, b] — reads y at the row, at every
      column;
    * the maximum over a row, from the accumulator's value, is the fold of `max` over the row's b entries;
    * the sum over a row is the sum of the row's b entries.
  Over any extents a, b.
-/
import Idealize.ShloMosaic.PureOps.Ideal.Laws
import Idealize.ShloMosaic.Lib.ValueIdx
import Idealize.ShloMosaic.Lib.Pipeline.Value

namespace Cert.LibRowOps

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and broadcast over the row's entries reads the statistic at the row. -/
theorem column_apply {a b : ℕ} (y : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ y h) h' (ix2 p c) = y (ix1 p) :=
  (broadcastTo_a1_ab_apply _ h' p c).trans (shapeCast_a_a1_apply y h p 0)

/-- The reduced index `r` of an [a, b] → [a] reduction over the columns, with column `k` put back, is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A row's maximum: the fold of `max` from the accumulator's value over the row's entries. -/
theorem rowMax_apply {a b : ℕ} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.maximumf.neutral φ hφ)
    (r : Fin a) :
    multiReduction .maximumf [1] (⟨1, ![a]⟩ : Shape) src acc h hφ hacc (ix1 r)
      = (Finset.univ : Finset (Fin b)).fold max (Ideal.ofBits φ acc) (fun t => src (ix2 r t)) := by
  rw [Ideal.multiReduction_maximumf_single src acc h hφ hacc (ix1 r)]
  have e : (src ∘ h.lift (ix1 r)) = fun t : Fin b => src (ix2 r t) := funext fun k => congrArg src (lift_row h r k)
  rw [e]; rfl

/-- A row's sum: the sum of the row's entries. -/
theorem rowSum_apply {a b : ℕ} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] (⟨1, ![a]⟩ : Shape) src acc h hφ hacc (ix1 r) = ∑ t : Fin b, src (ix2 r t) := by
  rw [Ideal.multiReduction_add_single src acc h hφ hacc (ix1 r)]
  exact Finset.sum_congr rfl fun k _ => congrArg src (lift_row h r k)

end Cert.LibRowOps
-- ==== Proof.RowSpec.lean ====
/-
  The loss of one row, written twice.

  A row holds scores x_0 … x_2047 (extended reals), a label l, and a margin μ. The label's score is replaced by
  the adjusted score  v = (x_l − μ) / s  when x_l > 0, and  (x_l − μ) · s  otherwise (s the scale the module fixes);
  the row's loss is minus the log-softmax of the patched row at the label:  log (Σ_{k ≠ l} e^{x_k} + e^{v}) − v.

  * `lossOfRow` computes it as a log-softmax does, with every exponent shifted by the patched row's maximum.
  * `lossOfStats` computes it from four numbers kept per row — the maximum r of the UNPATCHED row, the sum
    Σ_{k ≠ l} e^{x_k − r}, the label's score written as the masked sum Σ_k [k = l] x_k, and μ — with the shift max r v.
  The two agree on rows of real numbers: a log-sum-exp does not depend on the real number its exponents are shifted by.
  This module only states the two; it imports no program.
-/
import Idealize.ShloMosaic.PureOps.Ideal

noncomputable section

namespace Cert.MarginLoss

open Idealize.ShloMosaic

/-- The adjusted score of the label: divided by the scale when the score is positive, multiplied by it otherwise. -/
def adj (s o μ : EReal) : EReal := if 0 < o then Ideal.div (o - μ) s else (o - μ) * s

/-- A row's maximum, folded from bottom. -/
def rowMax (x : Fin 2048 → EReal) : EReal := (Finset.univ : Finset (Fin 2048)).fold max ⊥ x

/-- The sum of the shifted exponentials of the entries other than the label's. -/
def restExp (x : Fin 2048 → EReal) (l : Fin 2048) : EReal :=
  ∑ k : Fin 2048, if k = l then 0 else Ideal.exp (x k - rowMax x)

/-- The label's score, as the sum over the row that keeps only the label's entry. -/
def picked (x : Fin 2048 → EReal) (l : Fin 2048) : EReal := ∑ k : Fin 2048, if k = l then x k else 0

/-- The row's loss from the four per-row numbers: shift M = max r v, then M + log (rest · e^{r − M} + e^{v − M}) − v. -/
def lossOfStats (s r rest o μ : EReal) : EReal :=
  (max r (adj s o μ) + Ideal.log (rest * Ideal.exp (r - max r (adj s o μ)) + Ideal.exp (adj s o μ - max r (adj s o μ))))
    - adj s o μ

/-- The row with the label's entry replaced by `v`. -/
def patched (x : Fin 2048 → EReal) (l : Fin 2048) (v : EReal) : Fin 2048 → EReal := fun k => if k = l then v else x k

/-- Minus the log-softmax of the row `z` at the label: exponents shifted by the row's maximum (taken once more against
    bottom, as the host does), the normaliser a sum started at zero. -/
def lossOfRow (z : Fin 2048 → EReal) (l : Fin 2048) : EReal :=
  -((z l - max ⊥ (rowMax z)) - Ideal.log (0 + ∑ k : Fin 2048, Ideal.exp (z k - max ⊥ (rowMax z))))

end Cert.MarginLoss

end
-- ==== Proof.KPay.lean ====
/-
  What the two kernel bodies compute, read at an entry, on the extended reals.

  The first body holds a block of 512 rows of 2048 scores and the rows' labels (a column of words). Per row p it stores
  five numbers: the row's maximum (folded from bottom); the sum of the row; the sum of the squares; the sum over the row
  of e^{x − max} with the label's column masked to zero; and the sum over the row of the scores with every column but
  the label's masked to zero. The mask at column k is "the label's word is the word of k".
  The second body holds four columns of 1024 numbers and combines them entry by entry into the row's loss (`lossOfStats`).
-/
import proofs.«102043_j48644799594926_2_alg».proof.Proof.Gen.KernelIdeal.Skeleton
import proofs.«102043_j48644799594926_2_alg».proof.Proof.LibRowOps
import proofs.«102043_j48644799594926_2_alg».proof.Proof.RowSpec
import Idealize.ShloMosaic.Lib.ValueIdx
import Idealize.ShloMosaic.Lib.Pipeline.Value

noncomputable section

namespace Cert.MarginLoss

open Idealize.ShloMosaic Idealize.ShloMosaic.ValueIdx Cert.KernelIdeal Cert.KernelIdeal.Gen

/-- The word of minus infinity denotes bottom. -/
theorem ofBits_neg_inf : Ideal.ofBits .f32 0xFF800000#32 = (⊥ : EReal) := by
  simp [Ideal.ofBits, Ideal.ieee]

/-- The zero word denotes zero. -/
theorem ofBits_zero : Ideal.ofBits .f32 0x00000000#32 = (0 : EReal) := Ideal.ofBits_zero_f32

/-- A select on an ordered "greater than" is the `if` on the order. -/
theorem select_ogt {α : Type} (a b : EReal) (A B : α) :
    Scalar.select (Ideal.cmp .ogt a b) A B = if b < a then A else B := by
  unfold Scalar.select Ideal.cmp
  by_cases h : b < a <;> simp [h]

/-- A select on the equality of two words is the `if` on the equality. -/
theorem select_eq {α : Type} {w : Nat} (a b : BitVec w) (A B : α) :
    Scalar.select (IntOp.cmpi .eq a b) A B = if a = b then A else B := by
  unfold Scalar.select IntOp.cmpi
  by_cases h : a = b
  · subst h; simp
  · have hb : (a == b) = false := by simpa using h
    simp [h, hb]

/-- The column counter of a [512, 2048] block reads the column's word. -/
theorem lane_iota_apply (p : Fin 512) (k : Fin 2048) :
    iota .tc S512x2048 32 [1] iota_S512x2048_d1_w32 (ix2 p k) = BitVec.ofNat 32 k.val := by
  unfold iota
  show BitVec.ofNat 32 (0 * 2048 + k.val) = _
  rw [Nat.zero_mul, Nat.zero_add]

/-- The mask: at row p, column k, the label's word compared with the column's. -/
theorem mask_apply (x1 : IVec S512x1 32) (p : Fin 512) (k : Fin 2048) :
    k0_pay1 (F := Ideal) x1 (ix2 p k) = IntOp.cmpi .eq (x1 (ix2 p (0 : Fin 1))) (BitVec.ofNat 32 k.val) := by
  unfold k0_pay1
  dsimp only
  show IntOp.cmpi .eq (broadcastTo S512x2048 (shapeCast S512x1 x1 shapeCasts_S512x1_S512x1) broadcasts_S512x1_S512x2048 (ix2 p k))
      (iota .tc S512x2048 32 [1] iota_S512x2048_d1_w32 (ix2 p k)) = _
  rw [shapeCast_self, LibRowOps.broadcastTo_a1_ab_apply, lane_iota_apply]

/-- The stored row maximum. -/
theorem rowmax_apply (x0 : FVec Ideal S512x2048 .f32) (p : Fin 512) :
    k0_pay4 (F := Ideal) x0 (ix2 p (0 : Fin 1)) = rowMax fun k => x0 (ix2 p k) := by
  unfold k0_pay4
  dsimp only
  refine (LibRowOps.shapeCast_a_a1_apply _ shapeCasts_S512_S512x1 p 0).trans ?_
  refine (LibRowOps.rowMax_apply x0 0xFF800000#32 reduces_S512x2048_S512 (.inl rfl) rfl p).trans ?_
  unfold rowMax
  rw [ofBits_neg_inf]

/-- The stored row sum. -/
theorem rowsum_apply (x0 : FVec Ideal S512x2048 .f32) (p : Fin 512) :
    k0_pay2 (F := Ideal) x0 (ix2 p (0 : Fin 1)) = ∑ k : Fin 2048, x0 (ix2 p k) := by
  unfold k0_pay2
  dsimp only
  refine (LibRowOps.shapeCast_a_a1_apply _ shapeCasts_S512_S512x1 p 0).trans ?_
  exact LibRowOps.rowSum_apply x0 0x00000000#32 reduces_S512x2048_S512 (.inl rfl) rfl p

/-- The stored sum of squares. -/
theorem rowsq_apply (x0 : FVec Ideal S512x2048 .f32) (p : Fin 512) :
    k0_pay3 (F := Ideal) x0 (ix2 p (0 : Fin 1)) = ∑ k : Fin 2048, x0 (ix2 p k) * x0 (ix2 p k) := by
  unfold k0_pay3
  dsimp only
  refine (LibRowOps.shapeCast_a_a1_apply _ shapeCasts_S512_S512x1 p 0).trans ?_
  exact LibRowOps.rowSum_apply (mulf x0 x0) 0x00000000#32 reduces_S512x2048_S512 (.inl rfl) rfl p

/-- The stored masked sum of shifted exponentials. -/
theorem restexp_apply (x0 : FVec Ideal S512x2048 .f32) (x1 : IVec S512x1 32) (p : Fin 512) :
    k0_pay5 (F := Ideal) x0 x1 (ix2 p (0 : Fin 1))
      = ∑ k : Fin 2048, if x1 (ix2 p (0 : Fin 1)) = BitVec.ofNat 32 k.val then 0
          else Ideal.exp (x0 (ix2 p k) - rowMax fun j => x0 (ix2 p j)) := by
  unfold k0_pay5
  dsimp only
  refine (LibRowOps.shapeCast_a_a1_apply _ shapeCasts_S512_S512x1 p 0).trans ?_
  refine (LibRowOps.rowSum_apply _ 0x00000000#32 reduces_S512x2048_S512 (.inl rfl) rfl p).trans ?_
  refine Finset.sum_congr rfl fun k _ => ?_
  rw [select_apply, mask_apply, select_eq]
  refine if_congr Iff.rfl ofBits_zero ?_
  show Ideal.exp (x0 (ix2 p k) - broadcastTo S512x2048 (k0_pay4 (F := Ideal) x0) broadcasts_S512x1_S512x2048 (ix2 p k)) = _
  rw [LibRowOps.broadcastTo_a1_ab_apply, rowmax_apply]

/-- The stored masked sum of scores. -/
theorem picked_apply (x0 : FVec Ideal S512x2048 .f32) (x1 : IVec S512x1 32) (p : Fin 512) :
    k0_pay6 (F := Ideal) x0 x1 (ix2 p (0 : Fin 1))
      = ∑ k : Fin 2048, if x1 (ix2 p (0 : Fin 1)) = BitVec.ofNat 32 k.val then x0 (ix2 p k) else 0 := by
  unfold k0_pay6
  dsimp only
  refine (LibRowOps.shapeCast_a_a1_apply _ shapeCasts_S512_S512x1 p 0).trans ?_
  refine (LibRowOps.rowSum_apply _ 0x00000000#32 reduces_S512x2048_S512 (.inl rfl) rfl p).trans ?_
  refine Finset.sum_congr rfl fun k _ => ?_
  rw [select_apply, mask_apply, select_eq]
  exact if_congr Iff.rfl rfl ofBits_zero

/-- The second body, entry by entry: the row's loss from the four stored numbers. -/
theorem loss_apply (v0 v2 v4 v6 : FVec Ideal S1024x1 .f32) (i : S1024x1.Idx) :
    k1_pay1 (F := Ideal) v0 v2 v4 v6 i
      = lossOfStats (Ideal.ofBits .f32 0x3F866666#32) (v2 i) (v4 i) (v0 i) (v6 i) := by
  unfold k1_pay1
  simp only [shapeCast_self]
  have hv : select (cmpf .ogt v0 (broadcast S1024x1 (Scalar.ofBits .f32 0x00000000#32)))
        (divf (subf v0 v6) (broadcast S1024x1 (Scalar.ofBits .f32 0x3F866666#32)))
        (mulf (subf v0 v6) (broadcast S1024x1 (Scalar.ofBits .f32 0x3F866666#32))) i
      = adj (Ideal.ofBits .f32 0x3F866666#32) (v0 i) (v6 i) := by
    rw [select_apply]
    show Scalar.select (Ideal.cmp .ogt (v0 i) (Ideal.ofBits .f32 0x00000000#32))
        (Ideal.div (v0 i - v6 i) (Ideal.ofBits .f32 0x3F866666#32)) ((v0 i - v6 i) * Ideal.ofBits .f32 0x3F866666#32) = _
    rw [select_ogt, ofBits_zero]
    rfl
  show (max (v2 i) _ + Ideal.log (v4 i * Ideal.exp (v2 i - max (v2 i) _) + Ideal.exp (_ - max (v2 i) _))) - _ = _
  rw [hv]
  rfl

end Cert.MarginLoss

end
-- ==== Proof.MarginSpec.lean ====
/-
  The margin of each row, as both programs compute it from the rows' sums.

  Rows are grouped by label. For a class c: its count g_c (the number of rows labelled c) times 2048 is the number of
  scores in the group, taken at least 1; the group's mean is its sum of row sums over that count; its variance the
  group's sum of row squares over the count, minus the mean squared, taken at least 0; the class's margin is half the
  square root of the variance. A row's margin is its class's, read at the row's label (a negative label is first
  raised by 2048, as a host gather reads it). The group sums are accumulating scatters of the per-row numbers into a
  zero vector of 2048 classes, at the rows' labels.

  Both programs run this one chain of host operations on their own per-row sums, so it is stated once, as a function
  of the two vectors of per-row sums and the labels; this module imports no program.
-/
import Idealize.ShloMosaic.PureOps.Ideal
import Idealize.ShloMosaic.Lib.ValueIdx

noncomputable section

namespace Cert.MarginLoss

open Idealize.ShloMosaic

/-- One number. -/
abbrev One0 : Shape := ⟨0, ![]⟩
/-- One number per row. -/
abbrev Rows : Shape := ⟨1, ![32768]⟩
/-- One number per class. -/
abbrev Classes : Shape := ⟨1, ![2048]⟩
/-- One number per row, kept as a column. -/
abbrev RowsCol : Shape := ⟨2, ![32768, 1]⟩
/-- The scores. -/
abbrev Scores : Shape := ⟨2, ![32768, 2048]⟩

theorem bc_one_classes : One0.BroadcastsInDim Classes (![] : Fin 0 → Fin Classes.rank) := by decide
theorem bc_one_rows : One0.BroadcastsInDim Rows (![] : Fin 0 → Fin Rows.rank) := by decide
theorem bc_rows_col : Rows.BroadcastsInDim RowsCol (![0] : Fin 1 → Fin RowsCol.rank) := by decide

/-- The accumulating scatter of one number per row into the classes, at a column of labels. -/
def intoClasses : ScatterDims Classes RowsCol Rows where
  updateWindowDims := []
  insertedWindowDims := [0]
  scatterDimsToOperandDims := [0]
  indexVectorDim := 1

/-- The gather of one class's number per row, at a column of labels. -/
def fromClasses : GatherDims Classes RowsCol Rows where
  offsetDims := []
  collapsedSliceDims := [0]
  operandBatchingDims := []
  startIndicesBatchingDims := []
  startIndexMap := [0]
  indexVectorDim := 1
  sliceSizes := ![1]

/-- A constant per class. -/
def perClass (b : BitVec 32) : FVec Ideal Classes .f32 :=
  broadcastInDim Classes ![] bc_one_classes (constant (F := Ideal) One0 .f32 b)

/-- The sum over each class's rows of a per-row number. -/
def groupSum (u : FVec Ideal Rows .f32) (lbl : IVec Rows 32) : FVec Ideal Classes .f32 :=
  Host.scatterAdd (F := Ideal) intoClasses (perClass 0x00000000#32) (broadcastInDim RowsCol ![0] bc_rows_col lbl) u

/-- The number of scores in each class's group, at least one. -/
def groupCount (lbl : IVec Rows 32) : FVec Ideal Classes .f32 :=
  maximumf (mulf (groupSum (broadcastInDim Rows ![] bc_one_rows (constant (F := Ideal) One0 .f32 0x3F800000#32)) lbl)
    (perClass 0x45000000#32)) (perClass 0x3F800000#32)

/-- Each class's mean score. -/
def groupMean (rs : FVec Ideal Rows .f32) (lbl : IVec Rows 32) : FVec Ideal Classes .f32 :=
  Host.divf (F := Ideal) (groupSum rs lbl) (groupCount lbl)

/-- Each class's margin: half the square root of the (clamped) variance of its scores. -/
def classMargin (rs rq : FVec Ideal Rows .f32) (lbl : IVec Rows 32) : FVec Ideal Classes .f32 :=
  mulf (Host.sqrt (F := Ideal) (maximumf (subf (Host.divf (F := Ideal) (groupSum rq lbl) (groupCount lbl))
    (mulf (groupMean rs lbl) (groupMean rs lbl))) (perClass 0x00000000#32))) (perClass 0x3F000000#32)

/-- The labels as a host gather reads them: a negative one raised by 2048. -/
def wrapped (lbl : IVec Rows 32) : IVec Rows 32 :=
  select (cmpi .slt lbl (broadcastInDim Rows ![] bc_one_rows (constantI One0 32 0#32)))
    (addi lbl (broadcastInDim Rows ![] bc_one_rows (constantI One0 32 2048#32))) lbl

/-- Each row's margin: its class's. -/
def margin (rs rq : FVec Ideal Rows .f32) (lbl : IVec Rows 32) : FVec Ideal Rows .f32 :=
  Host.gather fromClasses (classMargin rs rq lbl) (broadcastInDim RowsCol ![0] bc_rows_col (wrapped lbl))

end Cert.MarginLoss

end
-- ==== Proof.LossSpec.lean ====
/-
  The mean loss, written as each program computes it from the scores and the labels.

  Row n's label, as a class, is the label's word read as a number (reduced modulo 2048, which changes nothing for a
  label in range). The reference patches the label's score of each row and takes minus the log-softmax there
  (`lossOfRow`), with the margin computed from row sums started at zero; the kernel keeps four numbers per row — the
  masks "the label's word is column k's word" decide which entries its two masked sums keep — and combines them
  (`lossOfStats`), with the margin computed from its own row sums. Both end with the sum of the rows' losses, started at
  zero, over the word of 32768; the kernel's losses sit in a column, the reference's in a vector.
-/
import proofs.«102043_j48644799594926_2_alg».proof.Proof.RowSpec
import proofs.«102043_j48644799594926_2_alg».proof.Proof.MarginSpec
import Idealize.ShloMosaic.Lib.ValueIdx

noncomputable section

namespace Cert.MarginLoss

open Idealize.ShloMosaic Idealize.ShloMosaic.ValueIdx

/-- The scale the module fixes, as the word both programs carry. -/
abbrev scaleW : EReal := Ideal.ofBits .f32 0x3F866666#32

/-- Row n of the scores. -/
def rowOf (x : FVec Ideal Scores .f32) (n : Fin 32768) : Fin 2048 → EReal := fun k => x (ix2 n k)

/-- Row n's label as a class. -/
def labelOf (lbl : IVec Rows 32) (n : Fin 32768) : Fin 2048 :=
  ⟨(lbl (ix1 n)).toNat % 2048, Nat.mod_lt _ (by decide)⟩

/-- The row an index of the per-row vector names. -/
def rowIx (j : Rows.Idx) : Fin 32768 := ⟨(j 0).val, (j 0).isLt⟩
/-- The row an index of the per-row column names. -/
def rowIx2 (i : RowsCol.Idx) : Fin 32768 := ⟨(i 0).val, (i 0).isLt⟩

/-! ## The reference -/

/-- The reference's row sums: zero plus the sum of the row. -/
def refRowSum (x : FVec Ideal Scores .f32) : FVec Ideal Rows .f32 := fun j => 0 + ∑ k : Fin 2048, x (ix2 (rowIx j) k)
/-- The reference's row sums of squares. -/
def refRowSq (x : FVec Ideal Scores .f32) : FVec Ideal Rows .f32 :=
  fun j => 0 + ∑ k : Fin 2048, x (ix2 (rowIx j) k) * x (ix2 (rowIx j) k)

/-- The reference's loss of row n. -/
def refLoss (x : FVec Ideal Scores .f32) (lbl : IVec Rows 32) (n : Fin 32768) : EReal :=
  lossOfRow (patched (rowOf x n) (labelOf lbl n)
    (adj scaleW (x (ix2 n (labelOf lbl n))) (margin (refRowSum x) (refRowSq x) lbl (ix1 n)))) (labelOf lbl n)

/-- The reference's result. -/
def refMean (x : FVec Ideal Scores .f32) (lbl : IVec Rows 32) : EReal :=
  Ideal.div (0 + ∑ j : Rows.Idx, refLoss x lbl (rowIx j)) (Ideal.ofBits .f32 0x47000000#32)

/-! ## The kernel -/

/-- The kernel's row sums. -/
def kerRowSum (x : FVec Ideal Scores .f32) : FVec Ideal Rows .f32 := fun j => ∑ k : Fin 2048, x (ix2 (rowIx j) k)
/-- The kernel's row sums of squares. -/
def kerRowSq (x : FVec Ideal Scores .f32) : FVec Ideal Rows .f32 :=
  fun j => ∑ k : Fin 2048, x (ix2 (rowIx j) k) * x (ix2 (rowIx j) k)

/-- The kernel's masked sum of shifted exponentials of row n. -/
def kerRest (x : FVec Ideal Scores .f32) (lbl : IVec Rows 32) (n : Fin 32768) : EReal :=
  ∑ k : Fin 2048, if lbl (ix1 n) = BitVec.ofNat 32 k.val then 0 else Ideal.exp (x (ix2 n k) - rowMax (rowOf x n))

/-- The kernel's masked sum of scores of row n. -/
def kerPicked (x : FVec Ideal Scores .f32) (lbl : IVec Rows 32) (n : Fin 32768) : EReal :=
  ∑ k : Fin 2048, if lbl (ix1 n) = BitVec.ofNat 32 k.val then x (ix2 n k) else 0

/-- The kernel's loss of row n. -/
def kerLoss (x : FVec Ideal Scores .f32) (lbl : IVec Rows 32) (n : Fin 32768) : EReal :=
  lossOfStats scaleW (rowMax (rowOf x n)) (kerRest x lbl n) (kerPicked x lbl n)
    (margin (kerRowSum x) (kerRowSq x) lbl (ix1 n))

/-- The kernel's result. -/
def kerMean (x : FVec Ideal Scores .f32) (lbl : IVec Rows 32) : EReal :=
  Ideal.div (0 + ∑ i : RowsCol.Idx, kerLoss x lbl (rowIx2 i)) (Ideal.ofBits .f32 0x47000000#32)

end Cert.MarginLoss

end
-- ==== Proof.KBlocks.lean ====
/-
  From blocks to arrays: what each output array of the two kernel launches holds after the launch.

  The first launch visits 64 points; at point t every window's block is block (t, 0): rows 512·t … 512·t + 511 of its
  array. Its body stores, per row of the block, five numbers that depend only on that row of the scores and on that
  row's label; so each of its five output arrays ends holding, at row n, that number of row n — one function of the
  scores array and the label column, whatever the tiling. The second launch visits 32 points with blocks of 1024 rows
  and combines four columns entry by entry; its output array ends holding the combination of the four columns.
  The blocks of each output tile its array, so the cover is arithmetic: row n is in the block of point n / 512 (n / 1024).
-/
import proofs.«102043_j48644799594926_2_alg».proof.Proof.Gen.KernelIdeal.Frame
import proofs.«102043_j48644799594926_2_alg».proof.Proof.KPay
import proofs.«102043_j48644799594926_2_alg».proof.Proof.LossSpec
import Idealize.ShloMosaic.Lib.Pipeline.Value

set_option maxRecDepth 16384

noncomputable section

namespace Cert.MarginLoss

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-! ## The first launch -/

/-- The printed index maps of the first launch, decided over its grid: every window's block at point t is block (t, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of point t's block is row 512·t + p of the array. -/
def rowAt0 (t : Fin cfg0.N) (p : Fin 512) : Fin 32768 :=
  ⟨t.val * 512 + p.val, by have h := t.isLt; have e : cfg0.N = 64 := N_0; omega⟩

/-- The scores block at a point, read at an entry. -/
theorem scores_blk_apply (c : Dev nD) (t : Fin cfg0.N) (p : Fin 512) (k : Fin 2048) :
    iblk0 V c 0 t (ix2 p k) = V c main_arg0 (ix2 (rowAt0 t p) k) := by
  obtain ⟨e0, e1, -⟩ := idx_facts0 t
  show V c main_arg0 (((cfg0.win 0).blk t).view.emb (ix2 p k)) = _
  refine congrArg (V c main_arg0) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 2048 + 1 * k.val = k.val; rw [e1]; omega

/-- The label block at a point, read at an entry. -/
theorem labels_blk_apply (c : Dev nD) (t : Fin cfg0.N) (p : Fin 512) :
    iblk0 V c 1 t (ix2 p (0 : Fin 1)) = V c main_v0 (ix2 (rowAt0 t p) (0 : Fin 1)) := by
  obtain ⟨-, -, e0, e1, -⟩ := idx_facts0 t
  show V c main_v0 (((cfg0.win 1).blk t).view.emb (ix2 p (0 : Fin 1))) = _
  refine congrArg (V c main_v0) (funext fun a => Fin.ext ?_)
  match a with
  | ⟨0, _⟩ => show win0_1.index t (0 : Fin 2) * 512 + 1 * p.val = t.val * 512 + p.val; rw [e0]; omega
  | ⟨1, _⟩ => show win0_1.index t (1 : Fin 2) * 1 + 1 * 0 = 0; rw [e1]

/-- What the five output arrays hold at row n, from the scores array X and the label column L. -/
def colMax (X : S32768x2048.Idx → EReal) : S32768x1.Idx → EReal :=
  fun i => rowMax (rowOf X (rowIx2 i))
def colRest (X : S32768x2048.Idx → EReal) (L : S32768x1.Idx → BitVec 32) : S32768x1.Idx → EReal :=
  fun i => ∑ k : Fin 2048, if L (ix2 (rowIx2 i) (0 : Fin 1)) = BitVec.ofNat 32 k.val then 0
    else Ideal.exp (X (ix2 (rowIx2 i) k) - rowMax (rowOf X (rowIx2 i)))
def colPicked (X : S32768x2048.Idx → EReal) (L : S32768x1.Idx → BitVec 32) : S32768x1.Idx → EReal :=
  fun i => ∑ k : Fin 2048, if L (ix2 (rowIx2 i) (0 : Fin 1)) = BitVec.ofNat 32 k.val then X (ix2 (rowIx2 i) k) else 0
def colSum (X : S32768x2048.Idx → EReal) : S32768x1.Idx → EReal :=
  fun i => ∑ k : Fin 2048, X (ix2 (rowIx2 i) k)
def colSq (X : S32768x2048.Idx → EReal) : S32768x1.Idx → EReal :=
  fun i => ∑ k : Fin 2048, X (ix2 (rowIx2 i) k) * X (ix2 (rowIx2 i) k)

/-- An entry of output window 2's block at a point is an entry of row 512·t + p of its array. -/
theorem out0_2_emb (t : Fin cfg0.N) (p : Fin 512) :
    ((cfg0.win 2).blk t).view.emb (ix2 p (0 : Fin 1)) = ix2 (rowAt0 t p) (0 : Fin 1) := by
  have e := idx_facts0 t
  funext a; apply Fin.ext
  match a with
  | ⟨0, _⟩ => show win0_2.index t (0 : Fin 2) * 512 + 1 * p.val = t.val * 512 + p.val; rw [e.2.2.2.2.1]; omega
  | ⟨1, _⟩ => show win0_2.index t (1 : Fin 2) * 1 + 1 * 0 = 0; rw [e.2.2.2.2.2.1]

/-- What point t writes back through output window 2 is block t of one function of the arrays. -/
theorem flushed0_2_eq (c : Dev nD) (t : Fin cfg0.N) :
    (dat0 V c).flushed 2 t = ((cfg0.win 2).blk t).view.read (Elt Ideal) (colMax (V c main_arg0)) := by
  show (cfg0.win 2).cut (grid0.coords t) ((dat0 V c).after 2 t) = _
  rw [after0_2]
  unfold out0_2
  rw [View.canon_unit_zero zero_offsets]
  simp only [View.ld_unit_zero (S := S512x2048) zero_offsets]
  funext j
  obtain ⟨p, q, rfl⟩ : ∃ (p : Fin 512) (q : Fin 1), j = ix2 p q := ⟨j 0, j 1, eq_ix2 j⟩
  obtain rfl : q = 0 := Subsingleton.elim _ _
  show k0_pay4 (F := Ideal) (iblk0 V c 0 t) (ix2 p (0 : Fin 1))
    = colMax (V c main_arg0) (((cfg0.win 2).blk t).view.emb (ix2 p (0 : Fin 1)))
  rw [out0_2_emb]
  refine (rowmax_apply (iblk0 V c 0 t) p).trans ?_
  simp only [scores_blk_apply]
  rfl

/-- An entry of output window 3's block at a point is an entry of row 512·t + p of its array. -/
theorem out0_3_emb (t : Fin cfg0.N) (p : Fin 512) :
    ((cfg0.win 3).blk t).view.emb (ix2 p (0 : Fin 1)) = ix2 (rowAt0 t p) (0 : Fin 1) := by
  have e := idx_facts0 t
  funext a; apply Fin.ext
  match a with
  | ⟨0, _⟩ => show win0_3.index t (0 : Fin 2) * 512 + 1 * p.val = t.val * 512 + p.val; rw [e.2.2.2.2.2.2.1]; omega
  | ⟨1, _⟩ => show win0_3.index t (1 : Fin 2) * 1 + 1 * 0 = 0; rw [e.2.2.2.2.2.2.2.1]

/-- What point t writes back through output window 3 is block t of one function of the arrays. -/
theorem flushed0_3_eq (c : Dev nD) (t : Fin cfg0.N) :
    (dat0 V c).flushed 3 t = ((cfg0.win 3).blk t).view.read (Elt Ideal) (colRest (V c main_arg0) (V c main_v0)) := by
  show (cfg0.win 3).cut (grid0.coords t) ((dat0 V c).after 3 t) = _
  rw [after0_3]
  unfold out0_3
  rw [View.canon_unit_zero zero_offsets]
  simp only [View.ld_unit_zero (S := S512x2048) zero_offsets, View.ld_unit_zero (S := S512x1) zero_offsets]
  funext j
  obtain ⟨p, q, rfl⟩ : ∃ (p : Fin 512) (q : Fin 1), j = ix2 p q := ⟨j 0, j 1, eq_ix2 j⟩
  obtain rfl : q = 0 := Subsingleton.elim _ _
  show k0_pay5 (F := Ideal) (iblk0 V c 0 t) (iblk0 V c 1 t) (ix2 p (0 : Fin 1))
    = colRest (V c main_arg0) (V c main_v0) (((cfg0.win 3).blk t).view.emb (ix2 p (0 : Fin 1)))
  rw [out0_3_emb]
  refine (restexp_apply (iblk0 V c 0 t) (iblk0 V c 1 t) p).trans ?_
  simp only [scores_blk_apply, labels_blk_apply]
  rfl

/-- An entry of output window 4's block at a point is an entry of row 512·t + p of its array. -/
theorem out0_4_emb (t : Fin cfg0.N) (p : Fin 512) :
    ((cfg0.win 4).blk t).view.emb (ix2 p (0 : Fin 1)) = ix2 (rowAt0 t p) (0 : Fin 1) := by
  have e := idx_facts0 t
  funext a; apply Fin.ext
  match a with
  | ⟨0, _⟩ => show win0_4.index t (0 : Fin 2) * 512 + 1 * p.val = t.val * 512 + p.val; rw [e.2.2.2.2.2.2.2.2.1]; omega
  | ⟨1, _⟩ => show win0_4.index t (1 : Fin 2) * 1 + 1 * 0 = 0; rw [e.2.2.2.2.2.2.2.2.2.1]

/-- What point t writes back through output window 4 is block t of one function of the arrays. -/
theorem flushed0_4_eq (c : Dev nD) (t : Fin cfg0.N) :
    (dat0 V c).flushed 4 t = ((cfg0.win 4).blk t).view.read (Elt Ideal) (colPicked (V c main_arg0) (V c main_v0)) := by
  show (cfg0.win 4).cut (grid0.coords t) ((dat0 V c).after 4 t) = _
  rw [after0_4]
  unfold out0_4
  rw [View.canon_unit_zero zero_offsets]
  simp only [View.ld_unit_zero (S := S512x2048) zero_offsets, View.ld_unit_zero (S := S512x1) zero_offsets]
  funext j
  obtain ⟨p, q, rfl⟩ : ∃ (p : Fin 512) (q : Fin 1), j = ix2 p q := ⟨j 0, j 1, eq_ix2 j⟩
  obtain rfl : q = 0 := Subsingleton.elim _ _
  show k0_pay6 (F := Ideal) (iblk0 V c 0 t) (iblk0 V c 1 t) (ix2 p (0 : Fin 1))
    = colPicked (V c main_arg0) (V c main_v0) (((cfg0.win 4).blk t).view.emb (ix2 p (0 : Fin 1)))
  rw [out0_4_emb]
  refine (picked_apply (iblk0 V c 0 t) (iblk0 V c 1 t) p).trans ?_
  simp only [scores_blk_apply, labels_blk_apply]
  rfl

/-- An entry of output window 5's block at a point is an entry of row 512·t + p of its array. -/
theorem out0_5_emb (t : Fin cfg0.N) (p : Fin 512) :
    ((cfg0.win 5).blk t).view.emb (ix2 p (0 : Fin 1)) = ix2 (rowAt0 t p) (0 : Fin 1) := by
  have e := idx_facts0 t
  funext a; apply Fin.ext
  match a with
  | ⟨0, _⟩ => show win0_5.index t (0 : Fin 2) * 512 + 1 * p.val = t.val * 512 + p.val; rw [e.2.2.2.2.2.2.2.2.2.2.1]; omega
  | ⟨1, _⟩ => show win0_5.index t (1 : Fin 2) * 1 + 1 * 0 = 0; rw [e.2.2.2.2.2.2.2.2.2.2.2.1]

/-- What point t writes back through output window 5 is block t of one function of the arrays. -/
theorem flushed0_5_eq (c : Dev nD) (t : Fin cfg0.N) :
    (dat0 V c).flushed 5 t = ((cfg0.win 5).blk t).view.read (Elt Ideal) (colSum (V c main_arg0)) := by
  show (cfg0.win 5).cut (grid0.coords t) ((dat0 V c).after 5 t) = _
  rw [after0_5]
  unfold out0_5
  rw [View.canon_unit_zero zero_offsets]
  simp only [View.ld_unit_zero (S := S512x2048) zero_offsets]
  funext j
  obtain ⟨p, q, rfl⟩ : ∃ (p : Fin 512) (q : Fin 1), j = ix2 p q := ⟨j 0, j 1, eq_ix2 j⟩
  obtain rfl : q = 0 := Subsingleton.elim _ _
  show k0_pay2 (F := Ideal) (iblk0 V c 0 t) (ix2 p (0 : Fin 1))
    = colSum (V c main_arg0) (((cfg0.win 5).blk t).view.emb (ix2 p (0 : Fin 1)))
  rw [out0_5_emb]
  refine (rowsum_apply (iblk0 V c 0 t) p).trans ?_
  simp only [scores_blk_apply]
  rfl

/-- An entry of output window 6's block at a point is an entry of row 512·t + p of its array. -/
theorem out0_6_emb (t : Fin cfg0.N) (p : Fin 512) :
    ((cfg0.win 6).blk t).view.emb (ix2 p (0 : Fin 1)) = ix2 (rowAt0 t p) (0 : Fin 1) := by
  have e := idx_facts0 t
  funext a; apply Fin.ext
  match a with
  | ⟨0, _⟩ => show win0_6.index t (0 : Fin 2) * 512 + 1 * p.val = t.val * 512 + p.val; rw [e.2.2.2.2.2.2.2.2.2.2.2.2.1]; omega
  | ⟨1, _⟩ => show win0_6.index t (1 : Fin 2) * 1 + 1 * 0 = 0; rw [e.2.2.2.2.2.2.2.2.2.2.2.2.2]

/-- What point t writes back through output window 6 is block t of one function of the arrays. -/
theorem flushed0_6_eq (c : Dev nD) (t : Fin cfg0.N) :
    (dat0 V c).flushed 6 t = ((cfg0.win 6).blk t).view.read (Elt Ideal) (colSq (V c main_arg0)) := by
  show (cfg0.win 6).cut (grid0.coords t) ((dat0 V c).after 6 t) = _
  rw [after0_6]
  unfold out0_6
  rw [View.canon_unit_zero zero_offsets]
  simp only [View.ld_unit_zero (S := S512x2048) zero_offsets]
  funext j
  obtain ⟨p, q, rfl⟩ : ∃ (p : Fin 512) (q : Fin 1), j = ix2 p q := ⟨j 0, j 1, eq_ix2 j⟩
  obtain rfl : q = 0 := Subsingleton.elim _ _
  show k0_pay3 (F := Ideal) (iblk0 V c 0 t) (ix2 p (0 : Fin 1))
    = colSq (V c main_arg0) (((cfg0.win 6).blk t).view.emb (ix2 p (0 : Fin 1)))
  rw [out0_6_emb]
  refine (rowsq_apply (iblk0 V c 0 t) p).trans ?_
  simp only [scores_blk_apply]
  rfl

/-- An index of output array 2 is in point t's block iff each coordinate is in the block's range on its axis. -/
theorem mem_blk0_2 (t : Fin cfg0.N) (i : S32768x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v1_0).slice (win0_2.rect t)).set ↔ _
  rw [View.set_slice_whole, Rect.mem_set_unit]
  exact Iff.rfl

/-- Row n of output array 2 is in the block of point n / 512. -/
theorem covered0_2 (i : S32768x1.Idx) :
    ∃ t : Fin cfg0.N, (cfg0.win 2).flush t = true ∧ i ∈ ((cfg0.win 2).blk t).view.set := by
  have hi0 : (i 0).val < 32768 := (i 0).isLt
  have hi1 : (i 1).val < 1 := (i 1).isLt
  have hN : cfg0.N = 64 := N_0
  obtain ⟨t, ht⟩ : ∃ t : Fin cfg0.N, t.val = (i 0).val / 512 := ⟨⟨(i 0).val / 512, by omega⟩, rfl⟩
  have e := idx_facts0 t
  refine ⟨t, flush0_2 t, ?_⟩
  rw [mem_blk0_2]
  intro a
  match a with
  | ⟨0, _⟩ =>
    show win0_2.index t (0 : Fin 2) * 512 ≤ (i 0).val ∧ (i 0).val < win0_2.index t (0 : Fin 2) * 512 + 512
    rw [e.2.2.2.2.1]; omega
  | ⟨1, _⟩ =>
    show win0_2.index t (1 : Fin 2) * 1 ≤ (i 1).val ∧ (i 1).val < win0_2.index t (1 : Fin 2) * 1 + 1
    rw [e.2.2.2.2.2.1]; omega

/-- Output array 2 after the first launch. -/
theorem final0_2 (c : Dev nD) : (dat0 V c).arrAt 2 cfg0.N = colMax (V c main_arg0) :=
  (dat0 V c).arrAt_eq_of_cover 2 _ (fun t _ => flushed0_2_eq V c t) covered0_2

/-- An index of output array 3 is in point t's block iff each coordinate is in the block's range on its axis. -/
theorem mem_blk0_3 (t : Fin cfg0.N) (i : S32768x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v1_1).slice (win0_3.rect t)).set ↔ _
  rw [View.set_slice_whole, Rect.mem_set_unit]
  exact Iff.rfl

/-- Row n of output array 3 is in the block of point n / 512. -/
theorem covered0_3 (i : S32768x1.Idx) :
    ∃ t : Fin cfg0.N, (cfg0.win 3).flush t = true ∧ i ∈ ((cfg0.win 3).blk t).view.set := by
  have hi0 : (i 0).val < 32768 := (i 0).isLt
  have hi1 : (i 1).val < 1 := (i 1).isLt
  have hN : cfg0.N = 64 := N_0
  obtain ⟨t, ht⟩ : ∃ t : Fin cfg0.N, t.val = (i 0).val / 512 := ⟨⟨(i 0).val / 512, by omega⟩, rfl⟩
  have e := idx_facts0 t
  refine ⟨t, flush0_3 t, ?_⟩
  rw [mem_blk0_3]
  intro a
  match a with
  | ⟨0, _⟩ =>
    show win0_3.index t (0 : Fin 2) * 512 ≤ (i 0).val ∧ (i 0).val < win0_3.index t (0 : Fin 2) * 512 + 512
    rw [e.2.2.2.2.2.2.1]; omega
  | ⟨1, _⟩ =>
    show win0_3.index t (1 : Fin 2) * 1 ≤ (i 1).val ∧ (i 1).val < win0_3.index t (1 : Fin 2) * 1 + 1
    rw [e.2.2.2.2.2.2.2.1]; omega

/-- Output array 3 after the first launch. -/
theorem final0_3 (c : Dev nD) : (dat0 V c).arrAt 3 cfg0.N = colRest (V c main_arg0) (V c main_v0) :=
  (dat0 V c).arrAt_eq_of_cover 3 _ (fun t _ => flushed0_3_eq V c t) covered0_3

/-- An index of output array 4 is in point t's block iff each coordinate is in the block's range on its axis. -/
theorem mem_blk0_4 (t : Fin cfg0.N) (i : S32768x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v1_2).slice (win0_4.rect t)).set ↔ _
  rw [View.set_slice_whole, Rect.mem_set_unit]
  exact Iff.rfl

/-- Row n of output array 4 is in the block of point n / 512. -/
theorem covered0_4 (i : S32768x1.Idx) :
    ∃ t : Fin cfg0.N, (cfg0.win 4).flush t = true ∧ i ∈ ((cfg0.win 4).blk t).view.set := by
  have hi0 : (i 0).val < 32768 := (i 0).isLt
  have hi1 : (i 1).val < 1 := (i 1).isLt
  have hN : cfg0.N = 64 := N_0
  obtain ⟨t, ht⟩ : ∃ t : Fin cfg0.N, t.val = (i 0).val / 512 := ⟨⟨(i 0).val / 512, by omega⟩, rfl⟩
  have e := idx_facts0 t
  refine ⟨t, flush0_4 t, ?_⟩
  rw [mem_blk0_4]
  intro a
  match a with
  | ⟨0, _⟩ =>
    show win0_4.index t (0 : Fin 2) * 512 ≤ (i 0).val ∧ (i 0).val < win0_4.index t (0 : Fin 2) * 512 + 512
    rw [e.2.2.2.2.2.2.2.2.1]; omega
  | ⟨1, _⟩ =>
    show win0_4.index t (1 : Fin 2) * 1 ≤ (i 1).val ∧ (i 1).val < win0_4.index t (1 : Fin 2) * 1 + 1
    rw [e.2.2.2.2.2.2.2.2.2.1]; omega

/-- Output array 4 after the first launch. -/
theorem final0_4 (c : Dev nD) : (dat0 V c).arrAt 4 cfg0.N = colPicked (V c main_arg0) (V c main_v0) :=
  (dat0 V c).arrAt_eq_of_cover 4 _ (fun t _ => flushed0_4_eq V c t) covered0_4

/-- An index of output array 5 is in point t's block iff each coordinate is in the block's range on its axis. -/
theorem mem_blk0_5 (t : Fin cfg0.N) (i : S32768x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v1_3).slice (win0_5.rect t)).set ↔ _
  rw [View.set_slice_whole, Rect.mem_set_unit]
  exact Iff.rfl

/-- Row n of output array 5 is in the block of point n / 512. -/
theorem covered0_5 (i : S32768x1.Idx) :
    ∃ t : Fin cfg0.N, (cfg0.win 5).flush t = true ∧ i ∈ ((cfg0.win 5).blk t).view.set := by
  have hi0 : (i 0).val < 32768 := (i 0).isLt
  have hi1 : (i 1).val < 1 := (i 1).isLt
  have hN : cfg0.N = 64 := N_0
  obtain ⟨t, ht⟩ : ∃ t : Fin cfg0.N, t.val = (i 0).val / 512 := ⟨⟨(i 0).val / 512, by omega⟩, rfl⟩
  have e := idx_facts0 t
  refine ⟨t, flush0_5 t, ?_⟩
  rw [mem_blk0_5]
  intro a
  match a with
  | ⟨0, _⟩ =>
    show win0_5.index t (0 : Fin 2) * 512 ≤ (i 0).val ∧ (i 0).val < win0_5.index t (0 : Fin 2) * 512 + 512
    rw [e.2.2.2.2.2.2.2.2.2.2.1]; omega
  | ⟨1, _⟩ =>
    show win0_5.index t (1 : Fin 2) * 1 ≤ (i 1).val ∧ (i 1).val < win0_5.index t (1 : Fin 2) * 1 + 1
    rw [e.2.2.2.2.2.2.2.2.2.2.2.1]; omega

/-- Output array 5 after the first launch. -/
theorem final0_5 (c : Dev nD) : (dat0 V c).arrAt 5 cfg0.N = colSum (V c main_arg0) :=
  (dat0 V c).arrAt_eq_of_cover 5 _ (fun t _ => flushed0_5_eq V c t) covered0_5

/-- An index of output array 6 is in point t's block iff each coordinate is in the block's range on its axis. -/
theorem mem_blk0_6 (t : Fin cfg0.N) (i : S32768x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v1_4).slice (win0_6.rect t)).set ↔ _
  rw [View.set_slice_whole, Rect.mem_set_unit]
  exact Iff.rfl

/-- Row n of output array 6 is in the block of point n / 512. -/
theorem covered0_6 (i : S32768x1.Idx) :
    ∃ t : Fin cfg0.N, (cfg0.win 6).flush t = true ∧ i ∈ ((cfg0.win 6).blk t).view.set := by
  have hi0 : (i 0).val < 32768 := (i 0).isLt
  have hi1 : (i 1).val < 1 := (i 1).isLt
  have hN : cfg0.N = 64 := N_0
  obtain ⟨t, ht⟩ : ∃ t : Fin cfg0.N, t.val = (i 0).val / 512 := ⟨⟨(i 0).val / 512, by omega⟩, rfl⟩
  have e := idx_facts0 t
  refine ⟨t, flush0_6 t, ?_⟩
  rw [mem_blk0_6]
  intro a
  match a with
  | ⟨0, _⟩ =>
    show win0_6.index t (0 : Fin 2) * 512 ≤ (i 0).val ∧ (i 0).val < win0_6.index t (0 : Fin 2) * 512 + 512
    rw [e.2.2.2.2.2.2.2.2.2.2.2.2.1]; omega
  | ⟨1, _⟩ =>
    show win0_6.index t (1 : Fin 2) * 1 ≤ (i 1).val ∧ (i 1).val < win0_6.index t (1 : Fin 2) * 1 + 1
    rw [e.2.2.2.2.2.2.2.2.2.2.2.2.2]; omega

/-- Output array 6 after the first launch. -/
theorem final0_6 (c : Dev nD) : (dat0 V c).arrAt 6 cfg0.N = colSq (V c main_arg0) :=
  (dat0 V c).arrAt_eq_of_cover 6 _ (fun t _ => flushed0_6_eq V c t) covered0_6

/-! ## The second launch -/

/-- The printed index maps of the second launch, decided over its grid: every window's block at point t is block (t, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row q of point t's block is row 1024·t + q of the array. -/
def rowAt1 (t : Fin cfg1.N) (q : Fin 1024) : Fin 32768 :=
  ⟨t.val * 1024 + q.val, by have h := t.isLt; have e : cfg1.N = 32 := N_1; omega⟩

/-- Input column 0's block at a point, read at an entry. -/
theorem col1_0_blk_apply (c : Dev nD) (t : Fin cfg1.N) (q : Fin 1024) :
    iblk1 V c 0 t (ix2 q (0 : Fin 1)) = V c main_v1_2 (ix2 (rowAt1 t q) (0 : Fin 1)) := by
  have e := idx_facts1 t
  show V c main_v1_2 (((cfg1.win 0).blk t).view.emb (ix2 q (0 : Fin 1))) = _
  refine congrArg (V c main_v1_2) (funext fun a => Fin.ext ?_)
  match a with
  | ⟨0, _⟩ => show win1_0.index t (0 : Fin 2) * 1024 + 1 * q.val = t.val * 1024 + q.val; rw [e.1]; omega
  | ⟨1, _⟩ => show win1_0.index t (1 : Fin 2) * 1 + 1 * 0 = 0; rw [e.2.1]

/-- Input column 1's block at a point, read at an entry. -/
theorem col1_1_blk_apply (c : Dev nD) (t : Fin cfg1.N) (q : Fin 1024) :
    iblk1 V c 1 t (ix2 q (0 : Fin 1)) = V c main_v1_0 (ix2 (rowAt1 t q) (0 : Fin 1)) := by
  have e := idx_facts1 t
  show V c main_v1_0 (((cfg1.win 1).blk t).view.emb (ix2 q (0 : Fin 1))) = _
  refine congrArg (V c main_v1_0) (funext fun a => Fin.ext ?_)
  match a with
  | ⟨0, _⟩ => show win1_1.index t (0 : Fin 2) * 1024 + 1 * q.val = t.val * 1024 + q.val; rw [e.2.2.1]; omega
  | ⟨1, _⟩ => show win1_1.index t (1 : Fin 2) * 1 + 1 * 0 = 0; rw [e.2.2.2.1]

/-- Input column 2's block at a point, read at an entry. -/
theorem col1_2_blk_apply (c : Dev nD) (t : Fin cfg1.N) (q : Fin 1024) :
    iblk1 V c 2 t (ix2 q (0 : Fin 1)) = V c main_v1_1 (ix2 (rowAt1 t q) (0 : Fin 1)) := by
  have e := idx_facts1 t
  show V c main_v1_1 (((cfg1.win 2).blk t).view.emb (ix2 q (0 : Fin 1))) = _
  refine congrArg (V c main_v1_1) (funext fun a => Fin.ext ?_)
  match a with
  | ⟨0, _⟩ => show win1_2.index t (0 : Fin 2) * 1024 + 1 * q.val = t.val * 1024 + q.val; rw [e.2.2.2.2.1]; omega
  | ⟨1, _⟩ => show win1_2.index t (1 : Fin 2) * 1 + 1 * 0 = 0; rw [e.2.2.2.2.2.1]

/-- Input column 3's block at a point, read at an entry. -/
theorem col1_3_blk_apply (c : Dev nD) (t : Fin cfg1.N) (q : Fin 1024) :
    iblk1 V c 3 t (ix2 q (0 : Fin 1)) = V c main_v34 (ix2 (rowAt1 t q) (0 : Fin 1)) := by
  have e := idx_facts1 t
  show V c main_v34 (((cfg1.win 3).blk t).view.emb (ix2 q (0 : Fin 1))) = _
  refine congrArg (V c main_v34) (funext fun a => Fin.ext ?_)
  match a with
  | ⟨0, _⟩ => show win1_3.index t (0 : Fin 2) * 1024 + 1 * q.val = t.val * 1024 + q.val; rw [e.2.2.2.2.2.2.1]; omega
  | ⟨1, _⟩ => show win1_3.index t (1 : Fin 2) * 1 + 1 * 0 = 0; rw [e.2.2.2.2.2.2.2.1]

/-- What the second launch's output array holds, from its four input columns (the label's score, the row maximum,
    the masked sum of exponentials, the margin): the row's loss. -/
def colLoss (A0 A1 A2 A3 : S32768x1.Idx → EReal) : S32768x1.Idx → EReal :=
  fun i => lossOfStats scaleW (A1 i) (A2 i) (A0 i) (A3 i)

/-- An entry of the output block at a point is an entry of row 1024·t + q of its array. -/
theorem out1_4_emb (t : Fin cfg1.N) (q : Fin 1024) :
    ((cfg1.win 4).blk t).view.emb (ix2 q (0 : Fin 1)) = ix2 (rowAt1 t q) (0 : Fin 1) := by
  have e := idx_facts1 t
  funext a; apply Fin.ext
  match a with
  | ⟨0, _⟩ => show win1_4.index t (0 : Fin 2) * 1024 + 1 * q.val = t.val * 1024 + q.val; rw [e.2.2.2.2.2.2.2.2.1]; omega
  | ⟨1, _⟩ => show win1_4.index t (1 : Fin 2) * 1 + 1 * 0 = 0; rw [e.2.2.2.2.2.2.2.2.2]

/-- What point t writes back is block t of the rows' losses. -/
theorem flushed1_4_eq (c : Dev nD) (t : Fin cfg1.N) :
    (dat1 V c).flushed 4 t = ((cfg1.win 4).blk t).view.read (Elt Ideal)
      (colLoss (V c main_v1_2) (V c main_v1_0) (V c main_v1_1) (V c main_v34)) := by
  show (cfg1.win 4).cut (grid1.coords t) ((dat1 V c).after 4 t) = _
  rw [after1_4]
  unfold out1_4
  rw [View.canon_unit_zero zero_offsets]
  simp only [View.ld_unit_zero (S := S1024x1) zero_offsets]
  funext j
  obtain ⟨p, q, rfl⟩ : ∃ (p : Fin 1024) (q : Fin 1), j = ix2 p q := ⟨j 0, j 1, eq_ix2 j⟩
  obtain rfl : q = 0 := Subsingleton.elim _ _
  show k1_pay1 (F := Ideal) (iblk1 V c 0 t) (iblk1 V c 1 t) (iblk1 V c 2 t) (iblk1 V c 3 t) (ix2 p (0 : Fin 1))
    = colLoss (V c main_v1_2) (V c main_v1_0) (V c main_v1_1) (V c main_v34) (((cfg1.win 4).blk t).view.emb (ix2 p (0 : Fin 1)))
  rw [out1_4_emb]
  refine (loss_apply (iblk1 V c 0 t) (iblk1 V c 1 t) (iblk1 V c 2 t) (iblk1 V c 3 t) (ix2 p (0 : Fin 1))).trans ?_
  simp only [col1_0_blk_apply, col1_1_blk_apply, col1_2_blk_apply, col1_3_blk_apply]
  rfl

/-- An index of the output array is in point t's block iff each coordinate is in the block's range on its axis. -/
theorem mem_blk1_4 (t : Fin cfg1.N) (i : S32768x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v35).slice (win1_4.rect t)).set ↔ _
  rw [View.set_slice_whole, Rect.mem_set_unit]
  exact Iff.rfl

/-- Row n of the output array is in the block of point n / 1024. -/
theorem covered1_4 (i : S32768x1.Idx) :
    ∃ t : Fin cfg1.N, (cfg1.win 4).flush t = true ∧ i ∈ ((cfg1.win 4).blk t).view.set := by
  have hi0 : (i 0).val < 32768 := (i 0).isLt
  have hi1 : (i 1).val < 1 := (i 1).isLt
  have hN : cfg1.N = 32 := N_1
  obtain ⟨t, ht⟩ : ∃ t : Fin cfg1.N, t.val = (i 0).val / 1024 := ⟨⟨(i 0).val / 1024, by omega⟩, rfl⟩
  have e := idx_facts1 t
  refine ⟨t, flush1_4 t, ?_⟩
  rw [mem_blk1_4]
  intro a
  match a with
  | ⟨0, _⟩ =>
    show win1_4.index t (0 : Fin 2) * 1024 ≤ (i 0).val ∧ (i 0).val < win1_4.index t (0 : Fin 2) * 1024 + 1024
    rw [e.2.2.2.2.2.2.2.2.1]; omega
  | ⟨1, _⟩ =>
    show win1_4.index t (1 : Fin 2) * 1 ≤ (i 1).val ∧ (i 1).val < win1_4.index t (1 : Fin 2) * 1 + 1
    rw [e.2.2.2.2.2.2.2.2.2]; omega

/-- The second launch's output array: the rows' losses. -/
theorem final1_4 (c : Dev nD) :
    (dat1 V c).arrAt 4 cfg1.N = colLoss (V c main_v1_2) (V c main_v1_0) (V c main_v1_1) (V c main_v34) :=
  (dat1 V c).arrAt_eq_of_cover 4 _ (fun t _ => flushed1_4_eq V c t) covered1_4

end Cert.MarginLoss

end
-- ==== Proof.Ix.lean ====
/-
  Rows, named three ways: by a number below 32768, by an index of the per-row vector, by an index of the per-row column.
  The three are in bijection, so a sum over the vector's indices or over the column's indices of a function of the row
  is the sum over the rows.
-/
import proofs.«102043_j48644799594926_2_alg».proof.Proof.LossSpec
import Idealize.ShloMosaic.Lib.Pipeline.Value

noncomputable section

namespace Cert.MarginLoss

open Idealize.ShloMosaic Idealize.ShloMosaic.ValueIdx

/-- An index of a column names its row, at column 0. -/
theorem col_ix (i : RowsCol.Idx) : i = ix2 (rowIx2 i) (0 : Fin 1) := by
  funext a; apply Fin.ext
  match a with
  | ⟨0, _⟩ => rfl
  | ⟨1, _⟩ =>
    have h1 : (i 1).val < 1 := (i 1).isLt
    show (i 1).val = 0
    omega

/-- An index of a per-row vector names its row. -/
theorem row_ix (j : Rows.Idx) : j = ix1 (rowIx j) := by
  funext a; apply Fin.ext
  match a with
  | ⟨0, _⟩ => rfl

/-- The column's indices are the rows. -/
def colEquiv : RowsCol.Idx ≃ Fin 32768 where
  toFun := rowIx2
  invFun n := ix2 n (0 : Fin 1)
  left_inv i := (col_ix i).symm
  right_inv _ := rfl

/-- The vector's indices are the rows. -/
def rowEquiv : Rows.Idx ≃ Fin 32768 where
  toFun := rowIx
  invFun n := ix1 n
  left_inv j := (row_ix j).symm
  right_inv _ := rfl

/-- A sum over the column's indices of a function of the row is the sum over the rows. -/
theorem sum_col (f : Fin 32768 → EReal) : ∑ i : RowsCol.Idx, f (rowIx2 i) = ∑ n : Fin 32768, f n :=
  Fintype.sum_equiv colEquiv _ _ fun _ => rfl

/-- A sum over the vector's indices of a function of the row is the sum over the rows. -/
theorem sum_row (f : Fin 32768 → EReal) : ∑ j : Rows.Idx, f (rowIx j) = ∑ n : Fin 32768, f n :=
  Fintype.sum_equiv rowEquiv _ _ fun _ => rfl

/-- A column read back as a vector reads the column at the row. -/
theorem uncol_apply {α : Type} (A : RowsCol.Idx → α) (h : RowsCol.ShapeCasts Rows) (j : Rows.Idx) :
    shapeCast Rows A h j = A (ix2 (rowIx j) (0 : Fin 1)) :=
  shapeCast_apply A h j _ (by
    rw [Shape.rowMajor_val_one, Shape.rowMajor_val_two]
    show (j 0).val * 1 + 0 = (j 0).val
    omega)

end Cert.MarginLoss

end
-- ==== Proof.KValue.lean ====
/-
  The kernel program's result as one function of its two arguments.

  The run ends with the result buffer at the last boundary's contents. Read back through the five segments:
  the last host stretch sums the second launch's output column from zero and divides by the word of 32768; that column
  is the rows' losses from the four columns the second launch reads; three of those are output arrays of the first launch
  (unchanged by the host operations in between) and the fourth is the margin column, which the host operations between
  the launches compute from the first launch's two sum columns and the labels; the first launch's arrays are the five
  per-row numbers of the scores and the label column; and the label column is the labels reshaped. Put together, the
  result is `kerMean` of the scores and the labels.
-/
import proofs.«102043_j48644799594926_2_alg».proof.Proof.KBlocks
import proofs.«102043_j48644799594926_2_alg».proof.Proof.LibRowOps
import proofs.«102043_j48644799594926_2_alg».proof.Proof.Ix
import Idealize.ShloMosaic.Lib.StableHlo.Run
import Idealize.ShloMosaic.PureOps.Ideal.Laws

set_option maxRecDepth 16384

noncomputable section

namespace Cert.MarginLoss

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The first launch's entry contents -/

theorem entry_scores : V1 m ρ c main_arg0 = m ((c.tc : Thread nD τ).loc main_arg0) := by
  show StableHlo.after hostOps0 (W0 m ρ c) (Proc.devRef .tc main_arg0) = _
  after_results

theorem entry_labels : V1 m ρ c main_v0
    = shapeCast S32768x1 (m ((c.tc : Thread nD τ).loc main_arg1)) shapeCasts_S32768_S32768x1 := by
  show StableHlo.after hostOps0 (W0 m ρ c) (Proc.devRef .tc main_v0) = _
  after_results
  rfl

/-! ## The first launch's exit contents -/

/-- The labels, kept as a column. -/
abbrev labelCol : S32768x1.Idx → BitVec 32 :=
  shapeCast S32768x1 (m ((c.tc : Thread nD τ).loc main_arg1)) shapeCasts_S32768_S32768x1

theorem exit_max : W2 m ρ c (Proc.devRef .tc main_v1_0) = colMax (m ((c.tc : Thread nD τ).loc main_arg0)) :=
  (W2_arr m ρ c 2).trans ((final0_2 (V1 m ρ) c).trans (by rw [entry_scores]))

theorem exit_rest : W2 m ρ c (Proc.devRef .tc main_v1_1)
    = colRest (m ((c.tc : Thread nD τ).loc main_arg0)) (labelCol m c) :=
  (W2_arr m ρ c 3).trans ((final0_3 (V1 m ρ) c).trans (by rw [entry_scores, entry_labels]))

theorem exit_picked : W2 m ρ c (Proc.devRef .tc main_v1_2)
    = colPicked (m ((c.tc : Thread nD τ).loc main_arg0)) (labelCol m c) :=
  (W2_arr m ρ c 4).trans ((final0_4 (V1 m ρ) c).trans (by rw [entry_scores, entry_labels]))

theorem exit_sum : W2 m ρ c (Proc.devRef .tc main_v1_3) = colSum (m ((c.tc : Thread nD τ).loc main_arg0)) :=
  (W2_arr m ρ c 5).trans ((final0_5 (V1 m ρ) c).trans (by rw [entry_scores]))

theorem exit_sq : W2 m ρ c (Proc.devRef .tc main_v1_4) = colSq (m ((c.tc : Thread nD τ).loc main_arg0)) :=
  (W2_arr m ρ c 6).trans ((final0_6 (V1 m ρ) c).trans (by rw [entry_scores]))

/-- The labels pass the first launch untouched. -/
theorem exit_labels : W2 m ρ c (Proc.devRef .tc main_arg1) = m ((c.tc : Thread nD τ).loc main_arg1) := by
  rw [W2_of_ne m ρ c main_arg1 (by decide)]
  show StableHlo.after hostOps0 (W0 m ρ c) (Proc.devRef .tc main_arg1) = _
  after_results

/-! ## The second launch's entry contents -/

theorem entry2_picked : V3 m ρ c main_v1_2 = colPicked (m ((c.tc : Thread nD τ).loc main_arg0)) (labelCol m c) := by
  show StableHlo.after hostOps1 (W2 m ρ c) (Proc.devRef .tc main_v1_2) = _
  after_results_simp
  exact exit_picked m ρ c

theorem entry2_max : V3 m ρ c main_v1_0 = colMax (m ((c.tc : Thread nD τ).loc main_arg0)) := by
  show StableHlo.after hostOps1 (W2 m ρ c) (Proc.devRef .tc main_v1_0) = _
  after_results_simp
  exact exit_max m ρ c

theorem entry2_rest : V3 m ρ c main_v1_1 = colRest (m ((c.tc : Thread nD τ).loc main_arg0)) (labelCol m c) := by
  show StableHlo.after hostOps1 (W2 m ρ c) (Proc.devRef .tc main_v1_1) = _
  after_results_simp
  exact exit_rest m ρ c

/-- The first launch's sum column, read back as a vector, is the kernel's row sums. -/
theorem sums_uncol (X : S32768x2048.Idx → EReal) :
    shapeCast S32768 (colSum X) shapeCasts_S32768x1_S32768 = kerRowSum X :=
  funext fun j => (uncol_apply (colSum X) shapeCasts_S32768x1_S32768 j).trans rfl

theorem sqs_uncol (X : S32768x2048.Idx → EReal) :
    shapeCast S32768 (colSq X) shapeCasts_S32768x1_S32768 = kerRowSq X :=
  funext fun j => (uncol_apply (colSq X) shapeCasts_S32768x1_S32768 j).trans rfl

set_option maxHeartbeats 2000000 in
/-- The margin column the host operations between the launches compute. -/
theorem entry2_margin : V3 m ρ c main_v34
    = shapeCast S32768x1 (margin (kerRowSum (m ((c.tc : Thread nD τ).loc main_arg0)))
        (kerRowSq (m ((c.tc : Thread nD τ).loc main_arg0))) (m ((c.tc : Thread nD τ).loc main_arg1)))
        shapeCasts_S32768_S32768x1 := by
  show StableHlo.after hostOps1 (W2 m ρ c) (Proc.devRef .tc main_v34) = _
  after_results_simp
  rw [exit_sum, exit_sq, exit_labels]
  have e1 : (fun i => shapeCast main_v2.ty.shape (colSum (m ((c.tc : Thread nD τ).loc main_arg0))) shapeCasts_S32768x1_S32768 i)
      = kerRowSum (m ((c.tc : Thread nD τ).loc main_arg0)) := sums_uncol _
  have e2 : (fun i => shapeCast main_v3.ty.shape (colSq (m ((c.tc : Thread nD τ).loc main_arg0))) shapeCasts_S32768x1_S32768 i)
      = kerRowSq (m ((c.tc : Thread nD τ).loc main_arg0)) := sqs_uncol _
  rw [e1, e2]
  rfl

/-! ## The second launch's exit contents, and the result -/

theorem exit2_loss : W4 m ρ c (Proc.devRef .tc main_v35)
    = colLoss (colPicked (m ((c.tc : Thread nD τ).loc main_arg0)) (labelCol m c))
        (colMax (m ((c.tc : Thread nD τ).loc main_arg0)))
        (colRest (m ((c.tc : Thread nD τ).loc main_arg0)) (labelCol m c))
        (shapeCast S32768x1 (margin (kerRowSum (m ((c.tc : Thread nD τ).loc main_arg0)))
          (kerRowSq (m ((c.tc : Thread nD τ).loc main_arg0))) (m ((c.tc : Thread nD τ).loc main_arg1)))
          shapeCasts_S32768_S32768x1) :=
  (W4_arr m ρ c 4).trans ((final1_4 (V3 m ρ) c).trans (by
    rw [entry2_picked, entry2_max, entry2_rest, entry2_margin]))

/-- An entry of the loss column is the kernel's loss of that row. -/
theorem losses_eq (i : S32768x1.Idx) :
    colLoss (colPicked (m ((c.tc : Thread nD τ).loc main_arg0)) (labelCol m c))
        (colMax (m ((c.tc : Thread nD τ).loc main_arg0)))
        (colRest (m ((c.tc : Thread nD τ).loc main_arg0)) (labelCol m c))
        (shapeCast S32768x1 (margin (kerRowSum (m ((c.tc : Thread nD τ).loc main_arg0)))
          (kerRowSq (m ((c.tc : Thread nD τ).loc main_arg0))) (m ((c.tc : Thread nD τ).loc main_arg1)))
          shapeCasts_S32768_S32768x1) i
      = kerLoss (m ((c.tc : Thread nD τ).loc main_arg0)) (m ((c.tc : Thread nD τ).loc main_arg1)) (rowIx2 i) := by
  have hL : labelCol m c (ix2 (rowIx2 i) (0 : Fin 1)) = m ((c.tc : Thread nD τ).loc main_arg1) (ix1 (rowIx2 i)) :=
    LibRowOps.shapeCast_a_a1_apply _ shapeCasts_S32768_S32768x1 (rowIx2 i) 0
  have hM : shapeCast S32768x1 (margin (kerRowSum (m ((c.tc : Thread nD τ).loc main_arg0)))
        (kerRowSq (m ((c.tc : Thread nD τ).loc main_arg0))) (m ((c.tc : Thread nD τ).loc main_arg1)))
        shapeCasts_S32768_S32768x1 i
      = margin (kerRowSum (m ((c.tc : Thread nD τ).loc main_arg0)))
        (kerRowSq (m ((c.tc : Thread nD τ).loc main_arg0))) (m ((c.tc : Thread nD τ).loc main_arg1)) (ix1 (rowIx2 i)) :=
    (congrArg _ (col_ix i)).trans (LibRowOps.shapeCast_a_a1_apply _ shapeCasts_S32768_S32768x1 (rowIx2 i) 0)
  unfold colLoss kerLoss colMax colRest colPicked kerRest kerPicked
  rw [hM]
  simp only [hL]

/-- The kernel program's result: the mean of the rows' losses, as the kernel computes them. -/
theorem ker_value : W5 m ρ c (Proc.devRef .tc main_v37)
    = fun _ => kerMean (m ((c.tc : Thread nD τ).loc main_arg0)) (m ((c.tc : Thread nD τ).loc main_arg1)) := by
  show StableHlo.after hostOps2 (W4 m ρ c) (Proc.devRef .tc main_v37) = _
  after_results
  rw [exit2_loss]
  funext j
  show Ideal.div (Ideal.hostReduceAdd reducesTo_S32768x1_S_d0_1 _ (Ideal.ofBits .f32 0x00000000#32) j)
      (Ideal.ofBits .f32 0x47000000#32) = _
  rw [Ideal.hostReduceAdd_total reducesTo_S32768x1_S_d0_1 (fun b => b.elim0) _ _ j, ofBits_zero]
  unfold kerMean
  exact congrArg (fun S => Ideal.div (0 + S) (Ideal.ofBits .f32 0x47000000#32))
    (Finset.sum_congr rfl fun i _ => losses_eq m c i)

end Cert.MarginLoss

end
-- ==== Proof.RefWindows.lean ====
/- The reference's 134 host operations cut into six consecutive windows, each a literal list, and the fact that their
   concatenation is the whole list. Each window ends where only one or two intermediate buffers are still read later. -/
import proofs.«102043_j48644799594926_2_alg».proof.Proof.RefRun

noncomputable section

namespace Cert.MarginLoss

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Window 1: the row sums, the group statistics and each row's margin (to main_v32). -/
abbrev wA : List (HloOp τ sig (Elt F)) :=
  [ nullary main_cst (constant S_ .f32 0x00000000#32),
    binary main_arg0 main_cst main_v0 ((fun x v => Host.reduceAdd x v reducesTo_S32768x2048_S32768_d1 h_S_) : (⟨S32768x2048, .f32⟩ : BufTy).Contents (Elt F) → (⟨S_, .f32⟩ : BufTy).Contents (Elt F) → (⟨S32768, .f32⟩ : BufTy).Contents (Elt F)),
    binary main_arg0 main_arg0 main_v1 (mulf : (⟨S32768x2048, .f32⟩ : BufTy).Contents (Elt F) → (⟨S32768x2048, .f32⟩ : BufTy).Contents (Elt F) → (⟨S32768x2048, .f32⟩ : BufTy).Contents (Elt F)),
    nullary main_cst_0 (constant S_ .f32 0x00000000#32),
    binary main_v1 main_cst_0 main_v2 ((fun x v => Host.reduceAdd x v reducesTo_S32768x2048_S32768_d1 h_S_) : (⟨S32768x2048, .f32⟩ : BufTy).Contents (Elt F) → (⟨S_, .f32⟩ : BufTy).Contents (Elt F) → (⟨S32768, .f32⟩ : BufTy).Contents (Elt F)),
    nullary main_cst_1 (constant S_ .f32 0x00000000#32),
    unary main_cst_1 main_v3 (broadcastInDim S2048 ![] bcast_S_S2048 : (⟨S_, .f32⟩ : BufTy).Contents (Elt F) → (⟨S2048, .f32⟩ : BufTy).Contents (Elt F)),
    unary main_arg1 main_v4 (broadcastInDim S32768x1 ![0] bcast_S32768_S32768x1_0 : (⟨S32768, .i32⟩ : BufTy).Contents (Elt F) → (⟨S32768x1, .i32⟩ : BufTy).Contents (Elt F)),
    ternary main_v3 main_v4 main_v0 main_v5 ((fun x i u => Host.scatterAdd scatter_S2048_S32768x1_S32768_n_0_0_1 x i u) : (⟨S2048, .f32⟩ : BufTy).Contents (Elt F) → (⟨S32768x1, .i32⟩ : BufTy).Contents (Elt F) → (⟨S32768, .f32⟩ : BufTy).Contents (Elt F) → (⟨S2048, .f32⟩ : BufTy).Contents (Elt F)),
    nullary main_cst_2 (constant S_ .f32 0x00000000#32),
    unary main_cst_2 main_v6 (broadcastInDim S2048 ![] bcast_S_S2048 : (⟨S_, .f32⟩ : BufTy).Contents (Elt F) → (⟨S2048, .f32⟩ : BufTy).Contents (Elt F)),
    unary main_arg1 main_v7 (broadcastInDim S32768x1 ![0] bcast_S32768_S32768x1_0 : (⟨S32768, .i32⟩ : BufTy).Contents (Elt F) → (⟨S32768x1, .i32⟩ : BufTy).Contents (Elt F)),
    ternary main_v6 main_v7 main_v2 main_v8 ((fun x i u => Host.scatterAdd scatter_S2048_S32768x1_S32768_n_0_0_1 x i u) : (⟨S2048, .f32⟩ : BufTy).Contents (Elt F) → (⟨S32768x1, .i32⟩ : BufTy).Contents (Elt F) → (⟨S32768, .f32⟩ : BufTy).Contents (Elt F) → (⟨S2048, .f32⟩ : BufTy).Contents (Elt F)),
    nullary main_cst_3 (constant S_ .f32 0x3F800000#32),
    unary main_cst_3 main_v9 (broadcastInDim S32768 ![] bcast_S_S32768 : (⟨S_, .f32⟩ : BufTy).Contents (Elt F) → (⟨S32768, .f32⟩ : BufTy).Contents (Elt F)),
    nullary main_cst_4 (constant S_ .f32 0x00000000#32),
    unary main_cst_4 main_v10 (broadcastInDim S2048 ![] bcast_S_S2048 : (⟨S_, .f32⟩ : BufTy).Contents (Elt F) → (⟨S2048, .f32⟩ : BufTy).Contents (Elt F)),
    unary main_arg1 main_v11 (broadcastInDim S32768x1 ![0] bcast_S32768_S32768x1_0 : (⟨S32768, .i32⟩ : BufTy).Contents (Elt F) → (⟨S32768x1, .i32⟩ : BufTy).Contents (Elt F)),
    ternary main_v10 main_v11 main_v9 main_v12 ((fun x i u => Host.scatterAdd scatter_S2048_S32768x1_S32768_n_0_0_1 x i u) : (⟨S2048, .f32⟩ : BufTy).Contents (Elt F) → (⟨S32768x1, .i32⟩ : BufTy).Contents (Elt F) → (⟨S32768, .f32⟩ : BufTy).Contents (Elt F) → (⟨S2048, .f32⟩ : BufTy).Contents (Elt F)),
    nullary main_cst_5 (constant S_ .f32 0x45000000#32),
    unary main_cst_5 main_v13 (broadcastInDim S2048 ![] bcast_S_S2048 : (⟨S_, .f32⟩ : BufTy).Contents (Elt F) → (⟨S2048, .f32⟩ : BufTy).Contents (Elt F)),
    binary main_v12 main_v13 main_v14 (mulf : (⟨S2048, .f32⟩ : BufTy).Contents (Elt F) → (⟨S2048, .f32⟩ : BufTy).Contents (Elt F) → (⟨S2048, .f32⟩ : BufTy).Contents (Elt F)),
    nullary main_cst_6 (constant S_ .f32 0x3F800000#32),
    unary main_cst_6 main_v15 (broadcastInDim S2048 ![] bcast_S_S2048 : (⟨S_, .f32⟩ : BufTy).Contents (Elt F) → (⟨S2048, .f32⟩ : BufTy).Contents (Elt F)),
    binary main_v14 main_v15 main_v16 (maximumf : (⟨S2048, .f32⟩ : BufTy).Contents (Elt F) → (⟨S2048, .f32⟩ : BufTy).Contents (Elt F) → (⟨S2048, .f32⟩ : BufTy).Contents (Elt F)),
    binary main_v5 main_v16 main_v17 (Host.divf : (⟨S2048, .f32⟩ : BufTy).Contents (Elt F) → (⟨S2048, .f32⟩ : BufTy).Contents (Elt F) → (⟨S2048, .f32⟩ : BufTy).Contents (Elt F)),
    binary main_v8 main_v16 main_v18 (Host.divf : (⟨S2048, .f32⟩ : BufTy).Contents (Elt F) → (⟨S2048, .f32⟩ : BufTy).Contents (Elt F) → (⟨S2048, .f32⟩ : BufTy).Contents (Elt F)),
    binary main_v17 main_v17 main_v19 (mulf : (⟨S2048, .f32⟩ : BufTy).Contents (Elt F) → (⟨S2048, .f32⟩ : BufTy).Contents (Elt F) → (⟨S2048, .f32⟩ : BufTy).Contents (Elt F)),
    binary main_v18 main_v19 main_v20 (subf : (⟨S2048, .f32⟩ : BufTy).Contents (Elt F) → (⟨S2048, .f32⟩ : BufTy).Contents (Elt F) → (⟨S2048, .f32⟩ : BufTy).Contents (Elt F)),
    nullary main_cst_7 (constant S_ .f32 0x00000000#32),
    unary main_cst_7 main_v21 (broadcastInDim S2048 ![] bcast_S_S2048 : (⟨S_, .f32⟩ : BufTy).Contents (Elt F) → (⟨S2048, .f32⟩ : BufTy).Contents (Elt F)),
    binary main_v20 main_v21 main_v22 (maximumf : (⟨S2048, .f32⟩ : BufTy).Contents (Elt F) → (⟨S2048, .f32⟩ : BufTy).Contents (Elt F) → (⟨S2048, .f32⟩ : BufTy).Contents (Elt F)),
    unary main_v22 main_v23 (Host.sqrt : (⟨S2048, .f32⟩ : BufTy).Contents (Elt F) → (⟨S2048, .f32⟩ : BufTy).Contents (Elt F)),
    nullary main_cst_8 (constant S_ .f32 0x3F000000#32),
    unary main_cst_8 main_v24 (broadcastInDim S2048 ![] bcast_S_S2048 : (⟨S_, .f32⟩ : BufTy).Contents (Elt F) → (⟨S2048, .f32⟩ : BufTy).Contents (Elt F)),
    binary main_v23 main_v24 main_v25 (mulf : (⟨S2048, .f32⟩ : BufTy).Contents (Elt F) → (⟨S2048, .f32⟩ : BufTy).Contents (Elt F) → (⟨S2048, .f32⟩ : BufTy).Contents (Elt F)),
    nullary main_c (constantI S_ 32 0#32),
    unary main_c main_v26 (broadcastInDim S32768 ![] bcast_S_S32768 : (⟨S_, .i32⟩ : BufTy).Contents (Elt F) → (⟨S32768, .i32⟩ : BufTy).Contents (Elt F)),
    binary main_arg1 main_v26 main_v27 (cmpi .slt : (⟨S32768, .i32⟩ : BufTy).Contents (Elt F) → (⟨S32768, .i32⟩ : BufTy).Contents (Elt F) → (⟨S32768, .i1⟩ : BufTy).Contents (Elt F)),
    nullary main_c_9 (constantI S_ 32 2048#32),
    unary main_c_9 main_v28 (broadcastInDim S32768 ![] bcast_S_S32768 : (⟨S_, .i32⟩ : BufTy).Contents (Elt F) → (⟨S32768, .i32⟩ : BufTy).Contents (Elt F)),
    binary main_arg1 main_v28 main_v29 (addi : (⟨S32768, .i32⟩ : BufTy).Contents (Elt F) → (⟨S32768, .i32⟩ : BufTy).Contents (Elt F) → (⟨S32768, .i32⟩ : BufTy).Contents (Elt F)),
    ternary main_v27 main_v29 main_arg1 main_v30 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v30 main_v31 (broadcastInDim S32768x1 ![0] bcast_S32768_S32768x1_0 : (⟨S32768, .i32⟩ : BufTy).Contents (Elt F) → (⟨S32768x1, .i32⟩ : BufTy).Contents (Elt F)),
    binary main_v25 main_v31 main_v32 ((fun x i => Host.gather gather_S2048_S32768x1_S32768_n_0_n_n_0_1_1 x i) : (⟨S2048, .f32⟩ : BufTy).Contents (Elt F) → (⟨S32768x1, .i32⟩ : BufTy).Contents (Elt F) → (⟨S32768, .f32⟩ : BufTy).Contents (Elt F)) ]

/-- Window 2: the label's score of each row (to main_v35). -/
abbrev wB : List (HloOp τ sig (Elt F)) :=
  [ unary main_arg1 main_v33 (broadcastInDim S32768x1 ![0] bcast_S32768_S32768x1_0 : (⟨S32768, .i32⟩ : BufTy).Contents (Elt F) → (⟨S32768x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S32768x1, .i32⟩) main_call0_v0) (broadcastInDim S32768x1 ![] bcast_S_S32768x1),
    TRef.binary (TRef.of (T := ⟨S32768x1, .i32⟩) main_v33) (TRef.of (T := ⟨S32768x1, .i32⟩) main_call0_v0) (TRef.of (T := ⟨S32768x1, .i1⟩) main_call0_v1) (cmpi .slt),
    TRef.nullary (TRef.of (T := ⟨S_, .i32⟩) main_call0_c_0) (constantI S_ 32 2048#32),
    TRef.unary (TRef.of (T := ⟨S_, .i32⟩) main_call0_c_0) (TRef.of (T := ⟨S32768x1, .i32⟩) main_call0_v2) (broadcastInDim S32768x1 ![] bcast_S_S32768x1),
    TRef.binary (TRef.of (T := ⟨S32768x1, .i32⟩) main_v33) (TRef.of (T := ⟨S32768x1, .i32⟩) main_call0_v2) (TRef.of (T := ⟨S32768x1, .i32⟩) main_call0_v3) addi,
    TRef.ternary (TRef.of (T := ⟨S32768x1, .i1⟩) main_call0_v1) (TRef.of (T := ⟨S32768x1, .i32⟩) main_call0_v3) (TRef.of (T := ⟨S32768x1, .i32⟩) main_v33) (TRef.of (T := ⟨S32768x1, .i32⟩) main_call0_v4) select,
    TRef.reshape (TRef.of (T := ⟨S32768x1, .i32⟩) main_call0_v4) (TRef.of (T := ⟨S32768x1x1, .i32⟩) main_call0_v5) rfl shapeCasts_S32768x1_S32768x1x1,
    TRef.nullary (TRef.of (T := ⟨S1, .i32⟩) main_call0_c_1) (constantI S1 32 2047#32),
    TRef.nullary (TRef.of (T := ⟨S_, .i32⟩) main_call0_c_2) (constantI S_ 32 0#32),
    TRef.unary (TRef.of (T := ⟨S_, .i32⟩) main_call0_c_2) (TRef.of (T := ⟨S32768x1x1, .i32⟩) main_call0_v6) (broadcastInDim S32768x1x1 ![] bcast_S_S32768x1x1),
    TRef.binary (TRef.of (T := ⟨S32768x1x1, .i32⟩) main_call0_v5) (TRef.of (T := ⟨S32768x1x1, .i32⟩) main_call0_v6) (TRef.of (T := ⟨S32768x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S32768x1x1, .i32⟩) main_call0_v9) (broadcastInDim S32768x1x1 ![0, 1, 2] bcast_S1x1x1_S32768x1x1_0_1_2),
    TRef.binary (TRef.of (T := ⟨S32768x1x1, .i32⟩) main_call0_v5) (TRef.of (T := ⟨S32768x1x1, .i32⟩) main_call0_v9) (TRef.of (T := ⟨S32768x1x1, .i1⟩) main_call0_v10) (cmpi .sle),
    TRef.binary (TRef.of (T := ⟨S32768x1x1, .i1⟩) main_call0_v7) (TRef.of (T := ⟨S32768x1x1, .i1⟩) main_call0_v10) (TRef.of (T := ⟨S32768x1x1, .i1⟩) main_call0_v11) andi,
    TRef.nullary (TRef.of (T := ⟨S_, .i1⟩) main_call0_c_3) (constantI S_ 1 1#1),
    TRef.binary (TRef.of (T := ⟨S32768x1x1, .i1⟩) main_call0_v11) (TRef.of (T := ⟨S_, .i1⟩) main_call0_c_3) (TRef.of (T := ⟨S32768x1, .i1⟩) main_call0_v12) (fun x v => Host.reduce IntOp.andi x v reducesTo_S32768x1x1_S32768x1_d2 h_S_),
    TRef.binary (TRef.of (T := ⟨S32768x2048, .f32⟩) main_arg0) (TRef.of (T := ⟨S32768x1x1, .i32⟩) main_call0_v5) (TRef.of (T := ⟨S32768x1, .f32⟩) main_call0_v13) (fun x i => Host.gather gather_S32768x2048_S32768x1x1_S32768x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S32768x1, .f32⟩) main_call0_v14) (broadcastInDim S32768x1 ![] bcast_S_S32768x1),
    TRef.ternary (TRef.of (T := ⟨S32768x1, .i1⟩) main_call0_v12) (TRef.of (T := ⟨S32768x1, .f32⟩) main_call0_v13) (TRef.of (T := ⟨S32768x1, .f32⟩) main_call0_v14) (TRef.of (T := ⟨S32768x1, .f32⟩) main_v34) select,
    reshape main_v34 main_v35 rfl shapeCasts_S32768x1_S32768 ]

/-- Window 3: the adjusted score (to main_v44). -/
abbrev wC : List (HloOp τ sig (Elt F)) :=
  [ nullary main_cst_10 (constant S_ .f32 0x00000000#32),
    unary main_cst_10 main_v36 (broadcastInDim S32768 ![] bcast_S_S32768 : (⟨S_, .f32⟩ : BufTy).Contents (Elt F) → (⟨S32768, .f32⟩ : BufTy).Contents (Elt F)),
    binary main_v35 main_v36 main_v37 (cmpf .ogt : (⟨S32768, .f32⟩ : BufTy).Contents (Elt F) → (⟨S32768, .f32⟩ : BufTy).Contents (Elt F) → (⟨S32768, .i1⟩ : BufTy).Contents (Elt F)),
    binary main_v35 main_v32 main_v38 (subf : (⟨S32768, .f32⟩ : BufTy).Contents (Elt F) → (⟨S32768, .f32⟩ : BufTy).Contents (Elt F) → (⟨S32768, .f32⟩ : BufTy).Contents (Elt F)),
    nullary main_cst_11 (constant S_ .f32 0x3F866666#32),
    unary main_cst_11 main_v39 (broadcastInDim S32768 ![] bcast_S_S32768 : (⟨S_, .f32⟩ : BufTy).Contents (Elt F) → (⟨S32768, .f32⟩ : BufTy).Contents (Elt F)),
    binary main_v38 main_v39 main_v40 (Host.divf : (⟨S32768, .f32⟩ : BufTy).Contents (Elt F) → (⟨S32768, .f32⟩ : BufTy).Contents (Elt F) → (⟨S32768, .f32⟩ : BufTy).Contents (Elt F)),
    binary main_v35 main_v32 main_v41 (subf : (⟨S32768, .f32⟩ : BufTy).Contents (Elt F) → (⟨S32768, .f32⟩ : BufTy).Contents (Elt F) → (⟨S32768, .f32⟩ : BufTy).Contents (Elt F)),
    nullary main_cst_12 (constant S_ .f32 0x3F866666#32),
    unary main_cst_12 main_v42 (broadcastInDim S32768 ![] bcast_S_S32768 : (⟨S_, .f32⟩ : BufTy).Contents (Elt F) → (⟨S32768, .f32⟩ : BufTy).Contents (Elt F)),
    binary main_v41 main_v42 main_v43 (mulf : (⟨S32768, .f32⟩ : BufTy).Contents (Elt F) → (⟨S32768, .f32⟩ : BufTy).Contents (Elt F) → (⟨S32768, .f32⟩ : BufTy).Contents (Elt F)),
    TRef.ternary (TRef.of (T := ⟨S32768, .i1⟩) main_v37) (TRef.of (T := ⟨S32768, .f32⟩) main_v40) (TRef.of (T := ⟨S32768, .f32⟩) main_v43) (TRef.of (T := ⟨S32768, .f32⟩) main_v44) select ]

/-- Window 4: the patched scores (to main_v52). -/
abbrev wD : List (HloOp τ sig (Elt F)) :=
  [ unary main_arg1 main_v45 (broadcastInDim S32768x1 ![0] bcast_S32768_S32768x1_0 : (⟨S32768, .i32⟩ : BufTy).Contents (Elt F) → (⟨S32768x1, .i32⟩ : BufTy).Contents (Elt F)),
    nullary main_v46 (iotaInDim S2048 32 0),
    unary main_v46 main_v47 (broadcastInDim S1x2048 ![1] bcast_S2048_S1x2048_1 : (⟨S2048, .i32⟩ : BufTy).Contents (Elt F) → (⟨S1x2048, .i32⟩ : BufTy).Contents (Elt F)),
    unary main_v45 main_v48 (broadcastInDim S32768x2048 ![0, 1] bcast_S32768x1_S32768x2048_0_1 : (⟨S32768x1, .i32⟩ : BufTy).Contents (Elt F) → (⟨S32768x2048, .i32⟩ : BufTy).Contents (Elt F)),
    unary main_v47 main_v49 (broadcastInDim S32768x2048 ![0, 1] bcast_S1x2048_S32768x2048_0_1 : (⟨S1x2048, .i32⟩ : BufTy).Contents (Elt F) → (⟨S32768x2048, .i32⟩ : BufTy).Contents (Elt F)),
    binary main_v48 main_v49 main_v50 (cmpi .eq : (⟨S32768x2048, .i32⟩ : BufTy).Contents (Elt F) → (⟨S32768x2048, .i32⟩ : BufTy).Contents (Elt F) → (⟨S32768x2048, .i1⟩ : BufTy).Contents (Elt F)),
    unary main_v44 main_v51 (broadcastInDim S32768x1 ![0] bcast_S32768_S32768x1_0 : (⟨S32768, .f32⟩ : BufTy).Contents (Elt F) → (⟨S32768x1, .f32⟩ : BufTy).Contents (Elt F)),
    TRef.unary (TRef.of (T := ⟨S32768x1, .f32⟩) main_v51) (TRef.of (T := ⟨S32768x2048, .f32⟩) main_call2_v0) (broadcastInDim S32768x2048 ![0, 1] bcast_S32768x1_S32768x2048_0_1),
    TRef.ternary (TRef.of (T := ⟨S32768x2048, .i1⟩) main_v50) (TRef.of (T := ⟨S32768x2048, .f32⟩) main_call2_v0) (TRef.of (T := ⟨S32768x2048, .f32⟩) main_arg0) (TRef.of (T := ⟨S32768x2048, .f32⟩) main_v52) select ]

/-- Window 5: the log-softmax (to main_v53). -/
abbrev wE : List (HloOp τ sig (Elt F)) :=
  [ TRef.nullary (TRef.of (T := ⟨S_, .f32⟩) main_call3_cst) (constant S_ .f32 0xFF800000#32),
    TRef.binary (TRef.of (T := ⟨S32768x2048, .f32⟩) main_v52) (TRef.of (T := ⟨S_, .f32⟩) main_call3_cst) (TRef.of (T := ⟨S32768, .f32⟩) main_call3_v0) (fun x v => Host.reduce FloatOps.maximumf x v reducesTo_S32768x2048_S32768_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S32768, .f32⟩) main_call3_v1) (broadcastInDim S32768 ![] bcast_S_S32768),
    TRef.binary (TRef.of (T := ⟨S32768, .f32⟩) main_call3_v1) (TRef.of (T := ⟨S32768, .f32⟩) main_call3_v0) (TRef.of (T := ⟨S32768, .f32⟩) main_call3_v2) maximumf,
    TRef.unary (TRef.of (T := ⟨S32768, .f32⟩) main_call3_v2) (TRef.of (T := ⟨S32768x1, .f32⟩) main_call3_v3) (broadcastInDim S32768x1 ![0] bcast_S32768_S32768x1_0),
    TRef.unary (TRef.of (T := ⟨S32768x1, .f32⟩) main_call3_v3) (TRef.of (T := ⟨S32768x2048, .f32⟩) main_call3_v4) (broadcastInDim S32768x2048 ![0, 1] bcast_S32768x1_S32768x2048_0_1),
    TRef.binary (TRef.of (T := ⟨S32768x2048, .f32⟩) main_v52) (TRef.of (T := ⟨S32768x2048, .f32⟩) main_call3_v4) (TRef.of (T := ⟨S32768x2048, .f32⟩) main_call3_v5) subf,
    TRef.unary (TRef.of (T := ⟨S32768x2048, .f32⟩) main_call3_v5) (TRef.of (T := ⟨S32768x2048, .f32⟩) main_call3_v6) Host.exp,
    TRef.nullary (TRef.of (T := ⟨S_, .f32⟩) main_call3_cst_1) (constant S_ .f32 0x00000000#32),
    TRef.binary (TRef.of (T := ⟨S32768x2048, .f32⟩) main_call3_v6) (TRef.of (T := ⟨S_, .f32⟩) main_call3_cst_1) (TRef.of (T := ⟨S32768, .f32⟩) main_call3_v7) (fun x v => Host.reduceAdd x v reducesTo_S32768x2048_S32768_d1 h_S_),
    TRef.unary (TRef.of (T := ⟨S32768, .f32⟩) main_call3_v7) (TRef.of (T := ⟨S32768x1, .f32⟩) main_call3_v8) (broadcastInDim S32768x1 ![0] bcast_S32768_S32768x1_0),
    TRef.unary (TRef.of (T := ⟨S32768x1, .f32⟩) main_call3_v8) (TRef.of (T := ⟨S32768x1, .f32⟩) main_call3_v9) Host.log,
    TRef.unary (TRef.of (T := ⟨S32768x1, .f32⟩) main_call3_v9) (TRef.of (T := ⟨S32768x2048, .f32⟩) main_call3_v10) (broadcastInDim S32768x2048 ![0, 1] bcast_S32768x1_S32768x2048_0_1),
    TRef.binary (TRef.of (T := ⟨S32768x2048, .f32⟩) main_call3_v5) (TRef.of (T := ⟨S32768x2048, .f32⟩) main_call3_v10) (TRef.of (T := ⟨S32768x2048, .f32⟩) main_v53) subf ]

/-- Window 6: the loss at the label, negated, and the mean (to main_v59). -/
abbrev wF : List (HloOp τ sig (Elt F)) :=
  [ unary main_arg1 main_v54 (broadcastInDim S32768x1 ![0] bcast_S32768_S32768x1_0 : (⟨S32768, .i32⟩ : BufTy).Contents (Elt F) → (⟨S32768x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S32768x1, .i32⟩) main_call4_v0) (broadcastInDim S32768x1 ![] bcast_S_S32768x1),
    TRef.binary (TRef.of (T := ⟨S32768x1, .i32⟩) main_v54) (TRef.of (T := ⟨S32768x1, .i32⟩) main_call4_v0) (TRef.of (T := ⟨S32768x1, .i1⟩) main_call4_v1) (cmpi .slt),
    TRef.nullary (TRef.of (T := ⟨S_, .i32⟩) main_call4_c_0) (constantI S_ 32 2048#32),
    TRef.unary (TRef.of (T := ⟨S_, .i32⟩) main_call4_c_0) (TRef.of (T := ⟨S32768x1, .i32⟩) main_call4_v2) (broadcastInDim S32768x1 ![] bcast_S_S32768x1),
    TRef.binary (TRef.of (T := ⟨S32768x1, .i32⟩) main_v54) (TRef.of (T := ⟨S32768x1, .i32⟩) main_call4_v2) (TRef.of (T := ⟨S32768x1, .i32⟩) main_call4_v3) addi,
    TRef.ternary (TRef.of (T := ⟨S32768x1, .i1⟩) main_call4_v1) (TRef.of (T := ⟨S32768x1, .i32⟩) main_call4_v3) (TRef.of (T := ⟨S32768x1, .i32⟩) main_v54) (TRef.of (T := ⟨S32768x1, .i32⟩) main_call4_v4) select,
    TRef.reshape (TRef.of (T := ⟨S32768x1, .i32⟩) main_call4_v4) (TRef.of (T := ⟨S32768x1x1, .i32⟩) main_call4_v5) rfl shapeCasts_S32768x1_S32768x1x1,
    TRef.nullary (TRef.of (T := ⟨S1, .i32⟩) main_call4_c_1) (constantI S1 32 2047#32),
    TRef.nullary (TRef.of (T := ⟨S_, .i32⟩) main_call4_c_2) (constantI S_ 32 0#32),
    TRef.unary (TRef.of (T := ⟨S_, .i32⟩) main_call4_c_2) (TRef.of (T := ⟨S32768x1x1, .i32⟩) main_call4_v6) (broadcastInDim S32768x1x1 ![] bcast_S_S32768x1x1),
    TRef.binary (TRef.of (T := ⟨S32768x1x1, .i32⟩) main_call4_v5) (TRef.of (T := ⟨S32768x1x1, .i32⟩) main_call4_v6) (TRef.of (T := ⟨S32768x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S32768x1x1, .i32⟩) main_call4_v9) (broadcastInDim S32768x1x1 ![0, 1, 2] bcast_S1x1x1_S32768x1x1_0_1_2),
    TRef.binary (TRef.of (T := ⟨S32768x1x1, .i32⟩) main_call4_v5) (TRef.of (T := ⟨S32768x1x1, .i32⟩) main_call4_v9) (TRef.of (T := ⟨S32768x1x1, .i1⟩) main_call4_v10) (cmpi .sle),
    TRef.binary (TRef.of (T := ⟨S32768x1x1, .i1⟩) main_call4_v7) (TRef.of (T := ⟨S32768x1x1, .i1⟩) main_call4_v10) (TRef.of (T := ⟨S32768x1x1, .i1⟩) main_call4_v11) andi,
    TRef.nullary (TRef.of (T := ⟨S_, .i1⟩) main_call4_c_3) (constantI S_ 1 1#1),
    TRef.binary (TRef.of (T := ⟨S32768x1x1, .i1⟩) main_call4_v11) (TRef.of (T := ⟨S_, .i1⟩) main_call4_c_3) (TRef.of (T := ⟨S32768x1, .i1⟩) main_call4_v12) (fun x v => Host.reduce IntOp.andi x v reducesTo_S32768x1x1_S32768x1_d2 h_S_),
    TRef.binary (TRef.of (T := ⟨S32768x2048, .f32⟩) main_v53) (TRef.of (T := ⟨S32768x1x1, .i32⟩) main_call4_v5) (TRef.of (T := ⟨S32768x1, .f32⟩) main_call4_v13) (fun x i => Host.gather gather_S32768x2048_S32768x1x1_S32768x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S32768x1, .f32⟩) main_call4_v14) (broadcastInDim S32768x1 ![] bcast_S_S32768x1),
    TRef.ternary (TRef.of (T := ⟨S32768x1, .i1⟩) main_call4_v12) (TRef.of (T := ⟨S32768x1, .f32⟩) main_call4_v13) (TRef.of (T := ⟨S32768x1, .f32⟩) main_call4_v14) (TRef.of (T := ⟨S32768x1, .f32⟩) main_v55) select,
    reshape main_v55 main_v56 rfl shapeCasts_S32768x1_S32768,
    unary main_v56 main_v57 (Host.negf : (⟨S32768, .f32⟩ : BufTy).Contents (Elt F) → (⟨S32768, .f32⟩ : BufTy).Contents (Elt F)),
    nullary main_cst_13 (constant S_ .f32 0x00000000#32),
    binary main_v57 main_cst_13 main_v58 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    nullary main_cst_14 (constant S_ .f32 0x47000000#32),
    binary main_v58 main_cst_14 main_v59 (Host.divf : (⟨S_, .f32⟩ : BufTy).Contents (Elt F) → (⟨S_, .f32⟩ : BufTy).Contents (Elt F) → (⟨S_, .f32⟩ : BufTy).Contents (Elt F)) ]

set_option maxRecDepth 8192 in
/-- The six windows in a row are the whole list. -/
theorem ops_windows : (ops (F := F)) = wA ++ (wB ++ (wC ++ (wD ++ (wE ++ wF)))) := rfl

end Cert.MarginLoss

end
-- ==== Proof.RefFold.lean ====
/-
  The reference's run, read as its staged value.

  The reference's @main is a list of host operations; its run leaves the result buffer at the fold of those operations'
  results over the launch contents. The list is cut into six consecutive windows, each ending where only one or two
  intermediate buffers are still read later: the rows' margins; the label's score of each row; the adjusted score; the
  patched scores; the log-softmax; the loss at the label and the mean. Unfolding ONE window's fold over any buffer
  contents whose argument buffers hold the arguments (and whose live buffer holds the previous stage) gives the window's
  operations composed — which is, definition by definition, the next stage of the arguments. Chaining the six windows
  gives the last stage.
-/
import proofs.«102043_j48644799594926_2_alg».proof.Proof.RefRead
import proofs.«102043_j48644799594926_2_alg».proof.Proof.RefWindows
import Idealize.ShloMosaic.Lib.Pipeline.Frame

noncomputable section

namespace Cert.MarginLoss

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]
variable (x0 : (⟨S32768x2048, .f32⟩ : BufTy).Contents (Elt F)) (x1 : (⟨S32768, .i32⟩ : BufTy).Contents (Elt F))

set_option maxRecDepth 65536 in
set_option maxHeartbeats 4000000 in
/-- Window 1 leaves the rows' margins, and the arguments where they were. -/
theorem fold_wA (V : Valuation τ sig (Elt F)) (h0 : V (Proc.devRef .tc main_arg0) = x0) (h1 : V (Proc.devRef .tc main_arg1) = x1) :
    after wA V (Proc.devRef .tc main_v32) = val_main_v32 (F := F) x0 x1
      ∧ after wA V (Proc.devRef .tc main_arg0) = x0 ∧ after wA V (Proc.devRef .tc main_arg1) = x1 := by
  refine ⟨?_, ?_, ?_⟩
  · after_results_simp
    simp only [h0, h1]
    rfl
  · after_results_simp
    exact h0
  · after_results_simp
    exact h1

set_option maxRecDepth 65536 in
set_option maxHeartbeats 4000000 in
/-- Window 2 leaves the label's score of each row, keeps the margins, and the arguments where they were. -/
theorem fold_wB (V : Valuation τ sig (Elt F)) (h32 : V (Proc.devRef .tc main_v32) = val_main_v32 (F := F) x0 x1)
    (h0 : V (Proc.devRef .tc main_arg0) = x0) (h1 : V (Proc.devRef .tc main_arg1) = x1) :
    after wB V (Proc.devRef .tc main_v35) = val_main_v35 (F := F) x0 x1
      ∧ after wB V (Proc.devRef .tc main_v32) = val_main_v32 (F := F) x0 x1
      ∧ after wB V (Proc.devRef .tc main_arg0) = x0 ∧ after wB V (Proc.devRef .tc main_arg1) = x1 := by
  refine ⟨?_, ?_, ?_, ?_⟩
  · after_results_simp
    simp only [h0, h1]
    rfl
  · after_results_simp
    exact h32
  · after_results_simp
    exact h0
  · after_results_simp
    exact h1

set_option maxRecDepth 65536 in
set_option maxHeartbeats 4000000 in
/-- Window 3 leaves the adjusted scores, and the arguments where they were. -/
theorem fold_wC (V : Valuation τ sig (Elt F)) (h35 : V (Proc.devRef .tc main_v35) = val_main_v35 (F := F) x0 x1)
    (h32 : V (Proc.devRef .tc main_v32) = val_main_v32 (F := F) x0 x1)
    (h0 : V (Proc.devRef .tc main_arg0) = x0) (h1 : V (Proc.devRef .tc main_arg1) = x1) :
    after wC V (Proc.devRef .tc main_v44) = val_main_v44 (F := F) x0 x1
      ∧ after wC V (Proc.devRef .tc main_arg0) = x0 ∧ after wC V (Proc.devRef .tc main_arg1) = x1 := by
  refine ⟨?_, ?_, ?_⟩
  · after_results_simp
    simp only [h35, h32]
    rfl
  · after_results_simp
    exact h0
  · after_results_simp
    exact h1

set_option maxRecDepth 65536 in
set_option maxHeartbeats 4000000 in
/-- Window 4 leaves the patched scores, and the arguments where they were. -/
theorem fold_wD (V : Valuation τ sig (Elt F)) (h44 : V (Proc.devRef .tc main_v44) = val_main_v44 (F := F) x0 x1)
    (h0 : V (Proc.devRef .tc main_arg0) = x0) (h1 : V (Proc.devRef .tc main_arg1) = x1) :
    after wD V (Proc.devRef .tc main_v52) = val_main_v52 (F := F) x0 x1
      ∧ after wD V (Proc.devRef .tc main_arg0) = x0 ∧ after wD V (Proc.devRef .tc main_arg1) = x1 := by
  refine ⟨?_, ?_, ?_⟩
  · after_results_simp
    simp only [h44, h0, h1]
    rfl
  · after_results_simp
    exact h0
  · after_results_simp
    exact h1

set_option maxRecDepth 65536 in
set_option maxHeartbeats 4000000 in
/-- Window 5 leaves the log-softmax of the patched scores, and the arguments where they were. -/
theorem fold_wE (V : Valuation τ sig (Elt F)) (h52 : V (Proc.devRef .tc main_v52) = val_main_v52 (F := F) x0 x1)
    (h0 : V (Proc.devRef .tc main_arg0) = x0) (h1 : V (Proc.devRef .tc main_arg1) = x1) :
    after wE V (Proc.devRef .tc main_v53) = val_main_v53 (F := F) x0 x1
      ∧ after wE V (Proc.devRef .tc main_arg0) = x0 ∧ after wE V (Proc.devRef .tc main_arg1) = x1 := by
  refine ⟨?_, ?_, ?_⟩
  · after_results_simp
    simp only [h52, TRef.toBuf, TRef.ofBuf, cast_eq]
    rfl
  · after_results_simp
    exact h0
  · after_results_simp
    exact h1

set_option maxRecDepth 65536 in
set_option maxHeartbeats 4000000 in
/-- Window 6 leaves the mean loss. -/
theorem fold_wF (V : Valuation τ sig (Elt F)) (h53 : V (Proc.devRef .tc main_v53) = val_main_v53 (F := F) x0 x1)
    (h0 : V (Proc.devRef .tc main_arg0) = x0) (h1 : V (Proc.devRef .tc main_arg1) = x1) :
    after wF V (Proc.devRef .tc main_v59) = val_main_v59 (F := F) x0 x1 := by
  after_results_simp
  simp only [h53, h1]
  rfl

/-- The fold of the reference's operations at the result buffer is the last stage of the arguments. -/
theorem ref_fold_eq (m : (ℓ : Loc nD τ sig) → Buf (Elt F) ℓ) (c : Dev nD) :
    after (ops (F := F)) (launchContents m c) (Proc.devRef .tc main_v59)
      = val_main_v59 (F := F) (m ((c.tc : Thread nD τ).loc main_arg0)) (m ((c.tc : Thread nD τ).loc main_arg1)) := by
  rw [ops_windows, StableHlo.after_append, StableHlo.after_append, StableHlo.after_append, StableHlo.after_append,
    StableHlo.after_append]
  obtain ⟨a32, a0, a1⟩ := fold_wA (m ((c.tc : Thread nD τ).loc main_arg0)) (m ((c.tc : Thread nD τ).loc main_arg1))
    (launchContents m c) rfl rfl
  obtain ⟨b35, b32, b0, b1⟩ := fold_wB _ _ _ a32 a0 a1
  obtain ⟨c44, c0, c1⟩ := fold_wC _ _ _ b35 b32 b0 b1
  obtain ⟨d52, d0, d1⟩ := fold_wD _ _ _ c44 c0 c1
  obtain ⟨e53, e0, e1⟩ := fold_wE _ _ _ d52 d0 d1
  exact fold_wF _ _ _ e53 e0 e1

end Cert.MarginLoss

end
-- ==== Proof.TakeAlong.lean ====
/-
  The reference's take-along-axis gather read at an index. The operand is a [32768, 2048] array, the start indices a
  [32768, 1, 1] array, the result [32768, 1]. Axis 0 of the operand is a batching axis paired with axis 0 of the start
  indices, axis 1 is collapsed and is the one axis the start index names. Result element (n, 0) is therefore the operand
  at row n and at the column given by the start index idx[n, 0, 0], read signed and clamped into [0, 2047]; when that
  start index reads as l < 2048 the column is l itself.
-/
import proofs.«102043_j48644799594926_2_alg».proof.ReferenceIdeal
import Idealize.ShloMosaic.Lib.ValueIdx

noncomputable section

namespace Cert.MarginLoss

open Idealize.ShloMosaic Idealize.ShloMosaic.ValueIdx

local notation "gd" => Cert.ReferenceIdeal.gather_S32768x2048_S32768x1x1_S32768x1_n_1_0_0_1_2_11

theorem takeAlong_apply [Cert.ReferenceIdeal.Facts₀] {α : Type} (X : Cert.ReferenceIdeal.S32768x2048.Idx → α)
    (idx : IVec Cert.ReferenceIdeal.S32768x1x1 32) (n : Fin 32768) (l : Fin 2048)
    (h : (idx (ix3 n (0 : Fin 1) (0 : Fin 1))).toInt = (l.val : Int)) :
    Host.gather Cert.ReferenceIdeal.gather_S32768x2048_S32768x1x1_S32768x1_n_1_0_0_1_2_11 X idx (ix2 n (0 : Fin 1)) = X (ix2 n l) := by
  show X (GatherDims.operandIdx gd (ix2 n (0 : Fin 1)) idx) = X (ix2 n l)
  refine congrArg X (funext fun a => Fin.ext ?_)
  show GatherDims.start gd (ix2 n (0 : Fin 1)) idx a + GatherDims.batchCoord gd (ix2 n (0 : Fin 1)) a + GatherDims.offCoord gd (ix2 n (0 : Fin 1)) a = (ix2 n l a).val
  match a with
  | ⟨0, h0⟩ =>
    -- the batching axis: no start, no offset, the result's row coordinate
    have hb : (⟨0, h0⟩ : Fin Cert.ReferenceIdeal.S32768x2048.rank) ∈ GatherDims.operandBatchingDims gd := List.mem_singleton.mpr rfl
    rw [GatherDims.start_batching gd _ _ _ hb, GatherDims.offCoord_eq_zero gd _ _ (fun hk => ((GatherDims.mem_sKept gd _).1 hk).2 hb)]
    simp only [Nat.zero_add, Nat.add_zero]
    unfold GatherDims.batchCoord
    rw [dif_pos hb]
    rfl
  | ⟨1, h1⟩ =>
    -- the collapsed axis: the clamped start index alone
    have hc : (⟨1, h1⟩ : Fin Cert.ReferenceIdeal.S32768x2048.rank) ∈ GatherDims.collapsedSliceDims gd := List.mem_singleton.mpr rfl
    have hnb : (⟨1, h1⟩ : Fin Cert.ReferenceIdeal.S32768x2048.rank) ∉ GatherDims.operandBatchingDims gd := by
      intro hk; exact Nat.one_ne_zero (congrArg Fin.val (List.mem_singleton.mp hk))
    rw [GatherDims.batchCoord_eq_zero gd _ _ hnb, GatherDims.offCoord_eq_zero gd _ _ (fun hk => ((GatherDims.mem_sKept gd _).1 hk).1 hc)]
    simp only [Nat.add_zero]
    unfold GatherDims.start
    rw [dif_pos (show (⟨1, h1⟩ : Fin Cert.ReferenceIdeal.S32768x2048.rank) ∈ GatherDims.startIndexMap gd from List.mem_singleton.mpr rfl)]
    have hsi : GatherDims.siIdx gd (ix2 n (0 : Fin 1)) ⟨List.idxOf (⟨1, h1⟩ : Fin Cert.ReferenceIdeal.S32768x2048.rank) (GatherDims.startIndexMap gd),
        List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi, h]
    show min ((l.val : Int).toNat) (2048 - 1) = l.val
    have hl := l.isLt
    omega

end Cert.MarginLoss

end
-- ==== Proof.RefValue.lean ====
/-
  The reference's staged value, read as the mean of the rows' losses.

  With every label in range (its word, read unsigned, below 2048):
    * a label read signed is its unsigned value, so the wrap "raise a negative label by 2048" leaves it alone, the
      in-range test of a take-along-axis gather is 1, and the gather reads the operand at the row and at the label;
    * the comparison of the label's word with column k's word holds exactly at the label's column, so the patched
      array is, row by row, the row with the label's entry replaced by the adjusted score;
    * the log-softmax of the patched array at (n, k) is the shifted entry minus the log of the row's sum of shifted
      exponentials, the shift being the row's maximum taken once more against bottom;
    * the margin is the one chain of host operations on the row sums and row sums of squares started at zero.
  So stage 57 at row n is the loss of row n, and the last stage is the sum of the losses, started at zero, over 32768.
-/
import proofs.«102043_j48644799594926_2_alg».proof.Proof.RefRead
import proofs.«102043_j48644799594926_2_alg».proof.Proof.LossSpec
import proofs.«102043_j48644799594926_2_alg».proof.Proof.TakeAlong
import proofs.«102043_j48644799594926_2_alg».proof.Proof.LibRowOps

noncomputable section

namespace Cert.MarginLoss

open Cert.ReferenceIdeal Cert.ReferenceIdeal.Gen Cert.ReferenceIdeal.Read Idealize.ShloMosaic Idealize.ShloMosaic.ValueIdx

namespace RefV

/-! ## Words -/

/-- A word below 2048 read signed is its unsigned value. -/
theorem toInt_of_lt (w : BitVec 32) (h : w.toNat < 2048) : w.toInt = (w.toNat : Int) := by
  rw [BitVec.toInt_eq_toNat_cond]
  split <;> omega

/-- The wrap of a negative label leaves a label in range alone. -/
theorem wrap_id (w : BitVec 32) (h : w.toNat < 2048) :
    Scalar.select (IntOp.cmpi .slt w 0#32) (IntOp.addi w 2048#32) w = w := by
  have hz : (0#32 : BitVec 32).toInt = 0 := by decide
  have hc : IntOp.cmpi .slt w 0#32 = 0#1 := eq_zero_of_ne_one fun h1 => by
    rw [IntOp.cmpi_slt, toInt_of_lt w h, hz] at h1
    omega
  rw [hc, select_zero]

/-- A label in range passes the gather's range test: at least 0 and at most 2047, read signed. -/
theorem in_range (w : BitVec 32) (h : w.toNat < 2048) :
    IntOp.andi (IntOp.cmpi .sge w 0#32) (IntOp.cmpi .sle w 2047#32) = 1#1 := by
  have hz : (0#32 : BitVec 32).toInt = 0 := by decide
  have hm : (2047#32 : BitVec 32).toInt = 2047 := by decide
  rw [IntOp.andi_eq_one, IntOp.cmpi_sge, IntOp.cmpi_sle, toInt_of_lt w h, hz, hm]
  omega

/-- A left fold by "and" from 1 over words that are all 1 is 1. -/
theorem foldl_andi_ones {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from by decide]
    exact foldl_andi_ones f hf l

/-- An and-reduction from 1 of an array of ones is 1 everywhere. -/
theorem reduce_andi_ones {s t u : Shape} {axes : List (Fin s.rank)} (x : s.Idx → BitVec 1) (hx : ∀ i, x i = 1#1)
    (init : u.Idx → BitVec 1) (h : s.ReducesTo axes t) (hu : 0 < u.numel) (hi : init (Shape.Idx.first hu) = 1#1) (j : t.Idx) :
    Host.reduce IntOp.andi x init h hu j = 1#1 := by
  rw [Host.reduce_eq_foldl, hi]
  exact foldl_andi_ones x hx _

/-- A select on an ordered "greater than" is the `if` on the order. -/
theorem sel_ogt {α : Type} (a b : EReal) (A B : α) :
    Scalar.select (Ideal.cmp .ogt a b) A B = if b < a then A else B := by
  unfold Scalar.select Ideal.cmp
  by_cases h : b < a <;> simp [h]

/-- A select on the equality of two words is the `if` on the equality. -/
theorem sel_eq {α : Type} {w : Nat} (a b : BitVec w) (A B : α) :
    Scalar.select (IntOp.cmpi .eq a b) A B = if a = b then A else B := by
  unfold Scalar.select IntOp.cmpi
  by_cases h : a = b
  · subst h; simp
  · have hb : (a == b) = false := by simpa using h
    simp [h, hb]

/-! ## The labels -/

variable (x0 : FVec Ideal S32768x2048 .f32) (x1 : IVec S32768 32)

/-- A label in range is its class. -/
theorem labelOf_val (hl : ∀ i, (x1 i).toNat < 2048) (n : Fin 32768) : (labelOf x1 n).val = (x1 (ix1 n)).toNat :=
  Nat.mod_eq_of_lt (hl _)

/-- The label's word is column k's word exactly at the label's class. -/
theorem label_eq_iff (hl : ∀ i, (x1 i).toNat < 2048) (n : Fin 32768) (k : Fin 2048) :
    x1 (ix1 n) = BitVec.ofNat 32 k.val ↔ k = labelOf x1 n := by
  have hk := k.isLt
  constructor
  · intro e
    apply Fin.ext
    rw [labelOf_val x1 hl n, e, BitVec.toNat_ofNat]
    omega
  · intro e
    apply BitVec.eq_of_toNat_eq
    rw [BitVec.toNat_ofNat, e, labelOf_val x1 hl n]
    have := hl (ix1 n)
    omega

/-- The start indices of the second take-along-axis gather: the labels, at every index. -/
theorem call4_v5_at (hl : ∀ i, (x1 i).toNat < 2048) (i : S32768x1x1.Idx) :
    val_main_call4_v5 (F := Ideal) x1 i = x1 (ix1 ⟨(i 0).val, (i 0).isLt⟩) := by
  rw [val_main_call4_v5_apply, val_main_call4_v4_apply, val_main_call4_v1_apply, val_main_call4_v3_apply,
    val_main_v54_apply, val_main_call4_v0_apply, val_main_call4_c_apply, val_main_call4_v2_apply,
    val_main_call4_c_0_apply, wrap_id _ (hl _)]
  refine congrArg x1 (funext fun a => ?_)
  match a with
  | ⟨0, _⟩ =>
    refine Fin.ext ?_
    have h1 : (i 1).val < 1 := (i 1).isLt
    have h2 : (i 2).val < 1 := (i 2).isLt
    show (((i 0).val * 1 + (i 1).val) * 1 + (i 2).val) / 1 = (i 0).val
    omega

/-- The range test of the second gather is 1 at every index. -/
theorem call4_v11_at (hl : ∀ i, (x1 i).toNat < 2048) (i : S32768x1x1.Idx) :
    val_main_call4_v11 (F := Ideal) x1 i = 1#1 := by
  rw [val_main_call4_v11_apply, val_main_call4_v7_apply, val_main_call4_v10_apply, call4_v5_at x1 hl,
    val_main_call4_v6_apply, val_main_call4_c_2_apply, val_main_call4_v9_apply, val_main_call4_v8_apply,
    val_main_call4_c_1_apply]
  exact in_range _ (hl _)

/-- So is its reduction over the axis of size one. -/
theorem call4_v12_at (hl : ∀ i, (x1 i).toNat < 2048) (j : S32768x1.Idx) :
    val_main_call4_v12 (F := Ideal) x1 j = 1#1 :=
  reduce_andi_ones _ (call4_v11_at x1 hl) _ _ _ rfl j

/-- The gather of a take-along-axis at row n: the operand at row n and at the label's column. -/
theorem take_at (y : FVec Ideal S32768x2048 .f32) (hl : ∀ i, (x1 i).toNat < 2048) (n : Fin 32768) :
    Host.gather gather_S32768x2048_S32768x1x1_S32768x1_n_1_0_0_1_2_11 y (val_main_call4_v5 (F := Ideal) x1) (ix2 n (0 : Fin 1))
      = y (ix2 n (labelOf x1 n)) := by
  refine takeAlong_apply y _ n (labelOf x1 n) ?_
  rw [call4_v5_at x1 hl, labelOf_val x1 hl n]
  exact toInt_of_lt _ (hl _)

/-! ## The margin -/

/-- The reference's first row reduction is the row sum started at zero. -/
theorem v0_eq : val_main_v0 (F := Ideal) x0 = refRowSum x0 := by
  funext j
  rw [val_main_v0_apply, val_main_cst_apply]
  show Ideal.ofBits .f32 0x00000000#32 + _ = 0 + _
  rw [Ideal.ofBits_zero_f32]
  refine congrArg (0 + ·) (Finset.sum_congr rfl fun k _ => congrArg x0 (funext fun a => ?_))
  match a with
  | ⟨0, _⟩ => rfl
  | ⟨1, _⟩ => rfl

/-- Its second is the row sum of squares started at zero. -/
theorem v2_eq : val_main_v2 (F := Ideal) x0 = refRowSq x0 := by
  funext j
  rw [val_main_v2_apply, val_main_cst_0_apply]
  show Ideal.ofBits .f32 0x00000000#32 + _ = 0 + _
  rw [Ideal.ofBits_zero_f32]
  refine congrArg (0 + ·) (Finset.sum_congr rfl fun k _ => ?_)
  have e : idx_main_v2 j k = ix2 (rowIx j) k := by
    funext a
    match a with
    | ⟨0, _⟩ => rfl
    | ⟨1, _⟩ => rfl
  rw [val_main_v1_apply, e]
  rfl

/-- The margin stage is the one chain of host operations on the two per-row stages. -/
theorem v32_chain : val_main_v32 (F := Ideal) x0 x1
    = margin (val_main_v0 (F := Ideal) x0) (val_main_v2 (F := Ideal) x0) x1 := rfl

/-- The margin stage, on the row sums started at zero. -/
theorem v32_eq : val_main_v32 (F := Ideal) x0 x1 = margin (refRowSum x0) (refRowSq x0) x1 := by
  rw [v32_chain, v0_eq, v2_eq]

/-! ## The label's score and its adjustment -/

/-- The first take-along-axis result at row n: the score at the label. -/
theorem v34_at (hl : ∀ i, (x1 i).toNat < 2048) (n : Fin 32768) :
    val_main_v34 (F := Ideal) x0 x1 (ix2 n (0 : Fin 1)) = x0 (ix2 n (labelOf x1 n)) := by
  have h12 : val_main_call0_v12 (F := Ideal) x1 = val_main_call4_v12 (F := Ideal) x1 := rfl
  have h5 : val_main_call0_v5 (F := Ideal) x1 = val_main_call4_v5 (F := Ideal) x1 := rfl
  rw [val_main_v34_apply, h12, call4_v12_at x1 hl, select_one]
  show Host.gather gather_S32768x2048_S32768x1x1_S32768x1_n_1_0_0_1_2_11 x0 (val_main_call0_v5 (F := Ideal) x1) (ix2 n (0 : Fin 1)) = _
  rw [h5]
  exact take_at x1 x0 hl n

/-- The same as a vector. -/
theorem v35_at (hl : ∀ i, (x1 i).toNat < 2048) (n : Fin 32768) :
    val_main_v35 (F := Ideal) x0 x1 (ix1 n) = x0 (ix2 n (labelOf x1 n)) := by
  have e : idx_main_v35 (ix1 n) = ix2 n (0 : Fin 1) := by
    funext a
    match a with
    | ⟨0, _⟩ => exact Fin.ext (Nat.div_one _)
    | ⟨1, _⟩ => rfl
  rw [val_main_v35_apply, e]
  exact v34_at x0 x1 hl n

/-- The adjusted score of row n. -/
theorem v44_at (hl : ∀ i, (x1 i).toNat < 2048) (n : Fin 32768) :
    val_main_v44 (F := Ideal) x0 x1 (ix1 n)
      = adj scaleW (x0 (ix2 n (labelOf x1 n))) (margin (refRowSum x0) (refRowSq x0) x1 (ix1 n)) := by
  rw [val_main_v44_apply, val_main_v37_apply, val_main_v40_apply, val_main_v43_apply, val_main_v38_apply,
    val_main_v41_apply, val_main_v39_apply, val_main_v42_apply, val_main_v36_apply, val_main_cst_10_apply,
    val_main_cst_11_apply, val_main_cst_12_apply, v35_at x0 x1 hl n, v32_eq]
  show Scalar.select (Ideal.cmp .ogt _ (Ideal.ofBits .f32 0x00000000#32)) (Ideal.div (_ - _) scaleW) ((_ - _) * scaleW) = _
  rw [sel_ogt, Ideal.ofBits_zero_f32]
  rfl

/-! ## The patched array and its log-softmax -/

/-- The patched array at (n, t): row n with the label's entry replaced by the adjusted score. -/
theorem v52_at (hl : ∀ i, (x1 i).toNat < 2048) (n : Fin 32768) (t : Fin 2048) :
    val_main_v52 (F := Ideal) x0 x1 (ix2 n t)
      = patched (rowOf x0 n) (labelOf x1 n) (val_main_v44 (F := Ideal) x0 x1 (ix1 n)) t := by
  have e1 : idx_main_v45 (idx_main_v48 (ix2 n t)) = ix1 n := by
    funext a
    match a with
    | ⟨0, _⟩ => rfl
  have e2 : idx_main_v51 (idx_main_call2_v0 (ix2 n t)) = ix1 n := by
    funext a
    match a with
    | ⟨0, _⟩ => rfl
  rw [val_main_v52_apply, val_main_v50_apply, val_main_v48_apply, val_main_v45_apply, val_main_v49_apply,
    val_main_v47_apply, val_main_v46_apply, val_main_call2_v0_apply, val_main_v51_apply, sel_eq, e1, e2]
  unfold patched rowOf
  exact if_congr (label_eq_iff x1 hl n t) rfl rfl

/-- The word of minus infinity denotes bottom. -/
theorem neg_inf : Ideal.ofBits .f32 0xFF800000#32 = (⊥ : EReal) := by
  simp [Ideal.ofBits, Ideal.ieee]

/-- The maximum over row n of the patched array, folded from bottom. -/
theorem call3_v0_at (n : Fin 32768) :
    val_main_call3_v0 (F := Ideal) x0 x1 (ix1 n) = rowMax fun t => val_main_v52 (F := Ideal) x0 x1 (ix2 n t) := by
  have hR : S32768x2048.Reduces [1] S32768 := by decide
  unfold val_main_call3_v0
  rw [Host.reduce_eq_fold_single FloatOps.maximumf _ _ reducesTo_S32768x2048_S32768_d1 hR h_S_ (ix1 n)]
  have e : (val_main_v52 (F := Ideal) x0 x1 ∘ hR.lift (ix1 n)) = fun t : Fin 2048 => val_main_v52 (F := Ideal) x0 x1 (ix2 n t) :=
    funext fun k => congrArg (val_main_v52 (F := Ideal) x0 x1) (LibRowOps.lift_row hR n k)
  rw [e]
  unfold rowMax
  show Finset.fold max (Ideal.ofBits .f32 0xFF800000#32) _ _ = _
  rw [neg_inf]
  rfl

/-- The log-softmax at (n, k), for the patched row written as a function z. -/
theorem v53_at (n : Fin 32768) (z : Fin 2048 → EReal) (hz : ∀ t, val_main_v52 (F := Ideal) x0 x1 (ix2 n t) = z t) (k : Fin 2048) :
    val_main_v53 (F := Ideal) x0 x1 (ix2 n k)
      = (z k - max ⊥ (rowMax z)) - Ideal.log (0 + ∑ t : Fin 2048, Ideal.exp (z t - max ⊥ (rowMax z))) := by
  obtain rfl : (fun t => val_main_v52 (F := Ideal) x0 x1 (ix2 n t)) = z := funext hz
  have hM : ∀ c : Fin 2048, val_main_call3_v4 (F := Ideal) x0 x1 (ix2 n c)
      = max ⊥ (rowMax fun t => val_main_v52 (F := Ideal) x0 x1 (ix2 n t)) := by
    intro c
    have e : idx_main_call3_v3 (idx_main_call3_v4 (ix2 n c)) = ix1 n := by
      funext a
      match a with
      | ⟨0, _⟩ => rfl
    rw [val_main_call3_v4_apply, val_main_call3_v3_apply, val_main_call3_v2_apply, val_main_call3_v1_apply,
      val_main_call3_cst_0_apply, e, call3_v0_at]
    show max (Ideal.ofBits .f32 0xFF800000#32) _ = _
    rw [neg_inf]
  have e8 : idx_main_call3_v8 (idx_main_call3_v10 (ix2 n k)) = ix1 n := by
    funext a
    match a with
    | ⟨0, _⟩ => rfl
  rw [val_main_v53_apply, val_main_call3_v5_apply, hM, val_main_call3_v10_apply, val_main_call3_v9_apply,
    val_main_call3_v8_apply, e8, val_main_call3_v7_apply, val_main_call3_cst_1_apply]
  show (_ - _) - Ideal.log (Ideal.ofBits .f32 0x00000000#32 + _) = _
  rw [Ideal.ofBits_zero_f32]
  refine congrArg (fun s => (_ - _) - Ideal.log (0 + s)) (Finset.sum_congr rfl fun t _ => ?_)
  have e7 : idx_main_call3_v7 (ix1 n) t = ix2 n t := by
    funext a
    match a with
    | ⟨0, _⟩ => rfl
    | ⟨1, _⟩ => rfl
  rw [val_main_call3_v6_apply, val_main_call3_v5_apply, e7, hM]
  rfl

/-! ## The loss of a row -/

/-- Stage 57 at row n is the loss of row n. -/
theorem v57_at (hl : ∀ i, (x1 i).toNat < 2048) (n : Fin 32768) :
    val_main_v57 (F := Ideal) x0 x1 (ix1 n) = refLoss x0 x1 n := by
  have e : idx_main_v56 (ix1 n) = ix2 n (0 : Fin 1) := by
    funext a
    match a with
    | ⟨0, _⟩ => exact Fin.ext (Nat.div_one _)
    | ⟨1, _⟩ => rfl
  rw [val_main_v57_apply, val_main_v56_apply, e, val_main_v55_apply, call4_v12_at x1 hl, select_one]
  show -(Host.gather gather_S32768x2048_S32768x1x1_S32768x1_n_1_0_0_1_2_11 (val_main_v53 (F := Ideal) x0 x1)
    (val_main_call4_v5 (F := Ideal) x1) (ix2 n (0 : Fin 1))) = _
  rw [take_at x1 _ hl n, v53_at x0 x1 n _ (fun t => by rw [v52_at x0 x1 hl n t, v44_at x0 x1 hl n])]
  rfl

end RefV

/-- The reference's staged value is the mean of the rows' losses. -/
theorem ref_value (x : FVec Ideal Scores .f32) (lbl : IVec Rows 32) (hl : ∀ i, (lbl i).toNat < 2048)
    (i : Cert.ReferenceIdeal.S_.Idx) :
    val_main_v59 (F := Ideal) x lbl i = refMean x lbl := by
  rw [val_main_v59_apply, val_main_v58_apply, val_main_cst_13_apply, val_main_cst_14_apply]
  unfold refMean
  show Ideal.div (Ideal.ofBits .f32 0x00000000#32 + _) (Ideal.ofBits .f32 0x47000000#32) = _
  rw [Ideal.ofBits_zero_f32]
  have hfun : val_main_v57 (F := Ideal) x lbl = fun j => refLoss x lbl (rowIx j) := by
    funext j
    obtain ⟨n, rfl⟩ : ∃ n : Fin 32768, j = ix1 n := ⟨j 0, eq_ix1 j⟩
    exact RefV.v57_at x lbl hl n
  rw [hfun]

end Cert.MarginLoss

end
-- ==== Proof.PreDecode.lean ====
/-
  What the precondition says of the inputs. The printed predicate is a conjunction of three "all" tests, each an
  and-reduction of a one-bit array into a single index: every entry of the float array has absolute value below
  +infinity, every label is at least 0 read signed, every label is below 2048 read signed. When the predicate is 1,
  every float entry is therefore a real number (neither infinity), and every label, read unsigned, is below 2048.
-/
import proofs.«102043_j48644799594926_2_alg».proof.Pre_finite_inputs
import Idealize.ShloMosaic.Lib.ReduceAll
import Idealize.ShloMosaic.PureOps.Ideal
import Idealize.ShloMosaic.Lib.ValueIdx

noncomputable section

namespace Cert.MarginLoss

open Idealize.ShloMosaic Idealize.ShloMosaic.ValueIdx

/-- The scalar shape has one index. -/
instance subsingleton_S_ : Subsingleton Cert.Pre_finite_inputs.S_.Idx := ⟨fun a b => funext fun d => d.elim0⟩

/-- An extended real whose absolute value max x (-x) is below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is 1 exactly when the Boolean is true. -/
theorem ofBool_eq_one (b : Bool) : BitVec.ofBool b = 1#1 ↔ b = true := by cases b <;> decide

/-- A 32-bit word in [0, n) read signed is below n read unsigned. -/
theorem toNat_lt_of_signed (a : BitVec 32) (n : Nat) (hn : n < 2 ^ 31) (h0 : (0#32).toInt ≤ a.toInt)
    (h1 : a.toInt < (BitVec.ofNat 32 n).toInt) : a.toNat < n := by
  have h32 := a.isLt
  have hz : (0#32 : BitVec 32).toInt = 0 := by decide
  have hnI : (BitVec.ofNat 32 n).toInt = (n : Int) := by
    rw [BitVec.toInt_eq_toNat_of_lt (by rw [BitVec.toNat_ofNat]; omega), BitVec.toNat_ofNat]; omega
  rw [hz] at h0
  rw [hnI] at h1
  rw [BitVec.toInt_eq_toNat_cond] at h0 h1
  split at h0 <;> omega

theorem pre_decode [Cert.Pre_finite_inputs.Facts] (x : FVec Ideal Cert.Pre_finite_inputs.S32768x2048 .f32) (lbl : IVec Cert.Pre_finite_inputs.S32768 32)
    (h : Cert.Pre_finite_inputs.fn (F := Ideal) x lbl = fun _ => 1#1) :
    (∀ i, ∃ r : ℝ, x i = (r : EReal)) ∧ (∀ i, (lbl i).toNat < 2048) := by
  have e := congrFun h ix0
  dsimp only [Cert.Pre_finite_inputs.fn] at e
  simp only [andi] at e
  rw [IntOp.andi_eq_one, IntOp.andi_eq_one] at e
  obtain ⟨⟨hx, h0⟩, h1⟩ := e
  refine ⟨fun i => ?_, fun i => ?_⟩
  · -- the entry's absolute value is below the word 0x7F800000, which denotes the top element
    have hi := Host.reduce_andi_all _ _ _ _ ix0 hx i
    have htop : Ideal.ofBits .f32 0x7F800000#32 = (⊤ : EReal) := by simp [Ideal.ofBits, Ideal.ieee]
    change BitVec.ofBool (decide (max (x i) (-(x i)) < Ideal.ofBits .f32 0x7F800000#32)) = 1#1 at hi
    rw [htop, ofBool_eq_one, decide_eq_true_eq] at hi
    exact real_of_abs_lt_top (x i) hi
  · -- the label is at least 0 and below 2048, read signed
    have hi0 := Host.reduce_andi_all _ _ _ _ ix0 h0 i
    have hi1 := Host.reduce_andi_all _ _ _ _ ix0 h1 i
    change IntOp.cmpi .sge (lbl i) (0#32) = 1#1 at hi0
    change IntOp.cmpi .slt (lbl i) (2048#32) = 1#1 at hi1
    rw [IntOp.cmpi_sge] at hi0
    rw [IntOp.cmpi_slt] at hi1
    exact toNat_lt_of_signed (lbl i) 2048 (by decide) hi0 hi1

end Cert.MarginLoss

end
-- ==== Proof.RowLaw.lean ====
/-
  The two ways of writing a row's loss agree on rows of real numbers.

  With every score x_k, the margin μ real and the scale s > 0 real, the adjusted score v is real, the row's maximum r
  is real, and so is the maximum of the patched row z (z_l = v, z_k = x_k elsewhere). Both formulas then reduce to
      M + log (Σ_k e^{z_k − M}) − v
  for a real shift M (M = max r v on one side, M = max z on the other), and that number does not depend on M:
      M + log (Σ_k e^{z_k − M}) = log (Σ_k e^{z_k}).
-/
import proofs.«102043_j48644799594926_2_alg».proof.Proof.RowSpec
import Mathlib.Analysis.SpecialFunctions.Log.Basic
import Mathlib.Data.EReal.Operations

noncomputable section

namespace Cert.MarginLoss

open Idealize.ShloMosaic

/-! ### Coercion of reals into the extended reals -/

/-- The coercion commutes with finite sums. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion commutes with the maximum of two reals. -/
theorem coe_max (a b : ℝ) : ((max a b : ℝ) : EReal) = max (a : EReal) (b : EReal) :=
  EReal.coe_strictMono.monotone.map_max

/-- The exponential of a difference of two reals. -/
theorem exp_sub_coe (a b : ℝ) : Ideal.exp ((a : EReal) - (b : EReal)) = ((Real.exp (a - b) : ℝ) : EReal) := by
  rw [← EReal.coe_sub]; rfl

/-- The logarithm of a positive real. -/
theorem log_coe_pos {a : ℝ} (h : 0 < a) : Ideal.log (a : EReal) = ((Real.log a : ℝ) : EReal) := by
  rw [Ideal.log_coe, if_neg (not_le.mpr h)]

/-! ### The label's score and its adjustment -/

/-- The masked sum keeps only the label's entry. -/
theorem picked_coe (x : Fin 2048 → ℝ) (l : Fin 2048) : picked (fun k => (x k : EReal)) l = (x l : EReal) := by
  unfold picked
  rw [Finset.sum_ite_eq', if_pos (Finset.mem_univ l)]

/-- The adjusted score of a real score, with a real margin and a positive real scale, is real. -/
theorem adj_coe (s : ℝ) (hs : 0 < s) (o μ : ℝ) : ∃ v : ℝ, adj (s : EReal) (o : EReal) (μ : EReal) = (v : EReal) := by
  unfold adj
  split_ifs
  · exact ⟨(o - μ) * (1 / s), by rw [Ideal.div_coe hs.ne', ← EReal.coe_sub, ← EReal.coe_mul]⟩
  · exact ⟨(o - μ) * s, by rw [← EReal.coe_sub, ← EReal.coe_mul]⟩

/-! ### The maximum of a row of reals is real -/

/-- Folding the maximum from bottom over a nonempty finite family of reals gives a real. -/
theorem fold_max_coe (z : Fin 2048 → ℝ) (t : Finset (Fin 2048)) (ht : t.Nonempty) :
    ∃ c : ℝ, t.fold max ⊥ (fun k => (z k : EReal)) = (c : EReal) := by
  induction ht using Finset.Nonempty.cons_induction with
  | singleton a =>
    refine ⟨z a, ?_⟩
    rw [Finset.fold_singleton]
    exact max_eq_left bot_le
  | cons a t ha ht ih =>
    obtain ⟨c, hc⟩ := ih
    refine ⟨max (z a) c, ?_⟩
    rw [Finset.fold_cons, hc, coe_max]

theorem rowMax_coe (z : Fin 2048 → ℝ) : ∃ c : ℝ, rowMax (fun k => (z k : EReal)) = (c : EReal) :=
  fold_max_coe z Finset.univ Finset.univ_nonempty

/-! ### A log-sum-exp does not depend on its shift -/

theorem lse_shift (z : Fin 2048 → ℝ) (M : ℝ) :
    M + Real.log (∑ k, Real.exp (z k - M)) = Real.log (∑ k, Real.exp (z k)) := by
  have hpos : 0 < ∑ k : Fin 2048, Real.exp (z k) :=
    Finset.sum_pos (fun k _ => Real.exp_pos _) Finset.univ_nonempty
  have hsum : ∑ k, Real.exp (z k - M) = (∑ k, Real.exp (z k)) * Real.exp (-M) := by
    rw [Finset.sum_mul]
    exact Finset.sum_congr rfl (fun k _ => by rw [← Real.exp_add, sub_eq_add_neg])
  rw [hsum, Real.log_mul hpos.ne' (Real.exp_pos _).ne', Real.log_exp]
  ring

/-- The per-row sum, rescaled to the shift M, plus the label's term, is the patched row's sum at the shift M. -/
theorem split_sum (x : Fin 2048 → ℝ) (l : Fin 2048) (v r M : ℝ) :
    (∑ k, if k = l then 0 else Real.exp (x k - r)) * Real.exp (r - M) + Real.exp (v - M)
      = ∑ k, Real.exp ((if k = l then v else x k) - M) := by
  have hterm : ∀ k : Fin 2048, Real.exp ((if k = l then v else x k) - M)
      = (if k = l then 0 else Real.exp (x k - r)) * Real.exp (r - M)
        + (if k = l then Real.exp (v - M) else 0) := by
    intro k
    split_ifs with h
    · rw [zero_mul, zero_add]
    · rw [add_zero, ← Real.exp_add]; congr 1; ring
  rw [Finset.sum_congr rfl (fun k _ => hterm k), Finset.sum_add_distrib, Finset.sum_mul,
    Finset.sum_ite_eq', if_pos (Finset.mem_univ l)]

/-! ### The two formulas on real data -/

theorem lossOfStats_coe (r rest v : ℝ) (hrest : 0 ≤ rest) (s o μ : EReal) (hv : adj s o μ = (v : EReal)) :
    lossOfStats s (r : EReal) (rest : EReal) o μ
      = ((max r v + Real.log (rest * Real.exp (r - max r v) + Real.exp (v - max r v)) - v : ℝ) : EReal) := by
  have hpos : 0 < rest * Real.exp (r - max r v) + Real.exp (v - max r v) :=
    add_pos_of_nonneg_of_pos (mul_nonneg hrest (Real.exp_pos _).le) (Real.exp_pos _)
  unfold lossOfStats
  rw [hv, ← coe_max, exp_sub_coe, exp_sub_coe, ← EReal.coe_mul, ← EReal.coe_add, log_coe_pos hpos,
    ← EReal.coe_add, ← EReal.coe_sub]

theorem lossOfRow_coe (z : Fin 2048 → ℝ) (l : Fin 2048) (c : ℝ)
    (hc : rowMax (fun k => (z k : EReal)) = (c : EReal)) :
    lossOfRow (fun k => (z k : EReal)) l
      = ((-((z l - c) - Real.log (∑ k, Real.exp (z k - c))) : ℝ) : EReal) := by
  have hpos : 0 < ∑ k : Fin 2048, Real.exp (z k - c) :=
    Finset.sum_pos (fun k _ => Real.exp_pos _) Finset.univ_nonempty
  have hsum : (∑ k : Fin 2048, Ideal.exp ((z k : EReal) - (c : EReal)))
      = ((∑ k, Real.exp (z k - c) : ℝ) : EReal) := by
    rw [coe_finset_sum]
    exact Finset.sum_congr rfl (fun k _ => exp_sub_coe _ _)
  unfold lossOfRow
  rw [hc, max_eq_right bot_le, hsum, zero_add, log_coe_pos hpos, ← EReal.coe_sub, ← EReal.coe_sub,
    ← EReal.coe_neg]

/-! ### The statement -/

theorem lossOfStats_eq_lossOfRow (s : ℝ) (hs : 0 < s) (x : Fin 2048 → ℝ) (l : Fin 2048) (μ : ℝ) :
    lossOfStats (s : EReal) (rowMax fun k => (x k : EReal)) (restExp (fun k => (x k : EReal)) l)
        (picked (fun k => (x k : EReal)) l) (μ : EReal)
      = lossOfRow (patched (fun k => (x k : EReal)) l (adj (s : EReal) (x l : EReal) (μ : EReal))) l := by
  obtain ⟨r, hr⟩ := rowMax_coe x
  obtain ⟨v, hv⟩ := adj_coe s hs (x l) μ
  obtain ⟨c, hc⟩ := rowMax_coe (fun k => if k = l then v else x k)
  -- the patched row is a row of reals
  have hpatch : patched (fun k => (x k : EReal)) l (v : EReal)
      = fun k => (((if k = l then v else x k : ℝ)) : EReal) := by
    funext k
    unfold patched
    split_ifs <;> rfl
  -- the per-row sum is a nonnegative real
  have hrest : restExp (fun k => (x k : EReal)) l
      = ((∑ k, (if k = l then 0 else Real.exp (x k - r)) : ℝ) : EReal) := by
    unfold restExp
    rw [hr, coe_finset_sum]
    refine Finset.sum_congr rfl (fun k _ => ?_)
    split_ifs
    · rfl
    · exact exp_sub_coe _ _
  have hrest0 : 0 ≤ ∑ k, (if k = l then 0 else Real.exp (x k - r)) :=
    Finset.sum_nonneg (fun k _ => by split_ifs; exacts [le_rfl, (Real.exp_pos _).le])
  rw [picked_coe, hr, hrest, lossOfStats_coe r _ v hrest0 _ _ _ hv, hv, hpatch, lossOfRow_coe _ l c hc]
  -- what is left is an identity between real numbers
  refine congrArg Real.toEReal ?_
  rw [split_sum, if_pos rfl]
  have h1 := lse_shift (fun k => if k = l then v else x k) (max r v)
  have h2 := lse_shift (fun k => if k = l then v else x k) c
  linarith

end Cert.MarginLoss

end
-- ==== Proof.MarginReal.lean ====
/-
  Every row's margin is a real number when the rows' sums are; and the scale's word denotes a positive real.

  A row's margin is its class's, read at some class index, so it is enough that every class's margin is real.
  A group sum is a zero plus a finite sum of per-row numbers: real when those are. The group's count is the larger of
  (a group sum of ones) · 2048 and 1: a real, and at least 1, so a division by it is a product with a real reciprocal.
  The mean and the mean of squares are then real, so is the variance; clamped at 0 it is a real that is not negative,
  whose square root is real; half of that is the class's margin.
-/
import proofs.«102043_j48644799594926_2_alg».proof.Proof.MarginSpec
import Mathlib.Data.EReal.Operations

noncomputable section

namespace Cert.MarginLoss

open Idealize.ShloMosaic

/-! ### Extended reals that are real numbers -/

/-- An extended real that is a real number. -/
abbrev IsRealVal (x : EReal) : Prop := ∃ r : ℝ, x = (r : EReal)

theorem isRealVal_add {x y : EReal} (hx : IsRealVal x) (hy : IsRealVal y) : IsRealVal (x + y) := by
  obtain ⟨a, rfl⟩ := hx; obtain ⟨b, rfl⟩ := hy; exact ⟨a + b, (EReal.coe_add a b).symm⟩

theorem isRealVal_sub {x y : EReal} (hx : IsRealVal x) (hy : IsRealVal y) : IsRealVal (x - y) := by
  obtain ⟨a, rfl⟩ := hx; obtain ⟨b, rfl⟩ := hy; exact ⟨a - b, (EReal.coe_sub a b).symm⟩

theorem isRealVal_mul {x y : EReal} (hx : IsRealVal x) (hy : IsRealVal y) : IsRealVal (x * y) := by
  obtain ⟨a, rfl⟩ := hx; obtain ⟨b, rfl⟩ := hy; exact ⟨a * b, (EReal.coe_mul a b).symm⟩

/-- A finite sum of real numbers is a real number. -/
theorem isRealVal_sum {ι : Type*} (t : Finset ι) (f : ι → EReal) (h : ∀ i ∈ t, IsRealVal (f i)) :
    IsRealVal (∑ i ∈ t, f i) := by
  classical
  induction t using Finset.induction_on with
  | empty => exact ⟨0, by rw [Finset.sum_empty, EReal.coe_zero]⟩
  | insert a t ha ih =>
    rw [Finset.sum_insert ha]
    exact isRealVal_add (h a (Finset.mem_insert_self a t)) (ih fun i hi => h i (Finset.mem_insert_of_mem hi))

/-- A division of a real number by a positive real number is a real number. -/
theorem isRealVal_div {x y : EReal} (hx : IsRealVal x) (hy : ∃ r : ℝ, 0 < r ∧ y = (r : EReal)) :
    IsRealVal (Ideal.div x y) := by
  obtain ⟨a, rfl⟩ := hx
  obtain ⟨n, hn, rfl⟩ := hy
  exact ⟨a * (1 / n), by rw [Ideal.div_coe hn.ne', ← EReal.coe_mul]⟩

/-- The square root of the larger of a real number and zero is a real number. -/
theorem isRealVal_sqrt_max_zero {x : EReal} (hx : IsRealVal x) : IsRealVal (Ideal.sqrt (max x ((0 : ℝ) : EReal))) := by
  obtain ⟨a, rfl⟩ := hx
  refine ⟨Real.sqrt (max a 0), ?_⟩
  rw [← EReal.coe_strictMono.monotone.map_max, Ideal.sqrt_coe, if_neg (not_lt.mpr (le_max_right a 0))]

/-! ### The words the chain spells -/

theorem word_zero : Ideal.ofBits .f32 0x00000000#32 = ((0 : ℝ) : EReal) := by
  simp [Ideal.ofBits, Ideal.ieee]

theorem word_one : Ideal.ofBits .f32 0x3F800000#32 = ((1 : ℝ) : EReal) := by
  simp [Ideal.ofBits, Ideal.ieee, -EReal.coe_mul]; norm_num

theorem word_2048 : Ideal.ofBits .f32 0x45000000#32 = ((2048 : ℝ) : EReal) := by
  simp [Ideal.ofBits, Ideal.ieee, -EReal.coe_mul]; norm_num

theorem word_half : Ideal.ofBits .f32 0x3F000000#32 = (((1 / 2 : ℝ)) : EReal) := by
  simp [Ideal.ofBits, Ideal.ieee, -EReal.coe_mul]; norm_num

/-- The scale's word denotes 8808038 / 8388608, a positive real. -/
theorem scale_word : ∃ s : ℝ, 0 < s ∧ Ideal.ofBits .f32 0x3F866666#32 = (s : EReal) := by
  refine ⟨8808038 / 8388608, by norm_num, ?_⟩
  simp [Ideal.ofBits, Ideal.ieee, -EReal.coe_mul]; norm_num

/-! ### The chain, entry by entry -/

/-- A host division, entry by entry. -/
theorem hostDivf_apply {s : Shape} (a b : FVec Ideal s .f32) (i : s.Idx) :
    Host.divf (F := Ideal) a b i = Ideal.div (a i) (b i) := rfl

/-- A host square root, entry by entry. -/
theorem hostSqrt_apply {s : Shape} (a : FVec Ideal s .f32) (i : s.Idx) :
    Host.sqrt (F := Ideal) a i = Ideal.sqrt (a i) := rfl

theorem perClass_apply (b : BitVec 32) (c : Classes.Idx) : perClass b c = Ideal.ofBits .f32 b := rfl

theorem ones_apply (j : Rows.Idx) :
    broadcastInDim Rows ![] bc_one_rows (constant (F := Ideal) One0 .f32 0x3F800000#32) j
      = Ideal.ofBits .f32 0x3F800000#32 := rfl

/-- A group's count at a class. -/
theorem groupCount_apply (lbl : IVec Rows 32) (c : Classes.Idx) :
    groupCount lbl c
      = max (groupSum (broadcastInDim Rows ![] bc_one_rows (constant (F := Ideal) One0 .f32 0x3F800000#32)) lbl c
          * perClass 0x45000000#32 c) (perClass 0x3F800000#32 c) := rfl

/-- A group's mean at a class. -/
theorem groupMean_apply (rs : FVec Ideal Rows .f32) (lbl : IVec Rows 32) (c : Classes.Idx) :
    groupMean rs lbl c = Ideal.div (groupSum rs lbl c) (groupCount lbl c) := by
  unfold groupMean
  exact hostDivf_apply _ _ c

/-- A class's margin. -/
theorem classMargin_apply (rs rq : FVec Ideal Rows .f32) (lbl : IVec Rows 32) (c : Classes.Idx) :
    classMargin rs rq lbl c
      = Ideal.sqrt (max (Ideal.div (groupSum rq lbl c) (groupCount lbl c) - groupMean rs lbl c * groupMean rs lbl c)
          (perClass 0x00000000#32 c)) * perClass 0x3F000000#32 c := by
  unfold classMargin
  rw [ValueIdx.mulf_apply, hostSqrt_apply, ValueIdx.maximumf_apply, ValueIdx.subf_apply, hostDivf_apply,
    ValueIdx.mulf_apply]

/-- A row's margin is a class's margin. -/
theorem margin_apply (rs rq : FVec Ideal Rows .f32) (lbl : IVec Rows 32) (j : Rows.Idx) :
    margin rs rq lbl j
      = classMargin rs rq lbl
          (fromClasses.operandIdx j (broadcastInDim RowsCol ![0] bc_rows_col (wrapped lbl))) := rfl

/-- An accumulating scatter of real numbers into real numbers holds real numbers. -/
theorem hostScatterAdd_real {s si su : Shape} (d : ScatterDims s si su) {w : Nat} (x : s.Idx → EReal) (idx : IVec si w)
    (upd : su.Idx → EReal) (hx : ∀ i, IsRealVal (x i)) (hu : ∀ j, IsRealVal (upd j)) (i : s.Idx) :
    IsRealVal (Ideal.hostScatterAdd d x idx upd i) := by
  unfold Ideal.hostScatterAdd
  exact isRealVal_add (hx i) (isRealVal_sum _ _ fun j _ => hu j)

theorem groupSum_real (u : FVec Ideal Rows .f32) (lbl : IVec Rows 32) (hu : ∀ j, IsRealVal (u j)) (c : Classes.Idx) :
    IsRealVal (groupSum u lbl c) :=
  hostScatterAdd_real intoClasses (perClass 0x00000000#32) _ u (fun _ => ⟨0, word_zero⟩) hu c

/-- A group's count is a real number, at least 1. -/
theorem groupCount_pos (lbl : IVec Rows 32) (c : Classes.Idx) :
    ∃ r : ℝ, 0 < r ∧ groupCount lbl c = (r : EReal) := by
  obtain ⟨g, hg⟩ := groupSum_real (broadcastInDim Rows ![] bc_one_rows (constant (F := Ideal) One0 .f32 0x3F800000#32))
    lbl (fun j => ⟨1, by rw [ones_apply, word_one]⟩) c
  refine ⟨max (g * 2048) 1, lt_of_lt_of_le one_pos (le_max_right _ _), ?_⟩
  rw [groupCount_apply, hg, perClass_apply, perClass_apply, word_2048, word_one, ← EReal.coe_mul,
    ← EReal.coe_strictMono.monotone.map_max]

theorem groupMean_real (rs : FVec Ideal Rows .f32) (lbl : IVec Rows 32) (hs : ∀ j, IsRealVal (rs j)) (c : Classes.Idx) :
    IsRealVal (groupMean rs lbl c) := by
  rw [groupMean_apply]
  exact isRealVal_div (groupSum_real rs lbl hs c) (groupCount_pos lbl c)

theorem classMargin_real (rs rq : FVec Ideal Rows .f32) (lbl : IVec Rows 32)
    (hs : ∀ j, IsRealVal (rs j)) (hq : ∀ j, IsRealVal (rq j)) (c : Classes.Idx) :
    IsRealVal (classMargin rs rq lbl c) := by
  have hvar : IsRealVal (Ideal.div (groupSum rq lbl c) (groupCount lbl c) - groupMean rs lbl c * groupMean rs lbl c) :=
    isRealVal_sub (isRealVal_div (groupSum_real rq lbl hq c) (groupCount_pos lbl c))
      (isRealVal_mul (groupMean_real rs lbl hs c) (groupMean_real rs lbl hs c))
  rw [classMargin_apply, perClass_apply, perClass_apply, word_zero, word_half]
  exact isRealVal_mul (isRealVal_sqrt_max_zero hvar) ⟨1 / 2, rfl⟩

/-! ### The statement -/

theorem margin_real (rs rq : FVec Ideal Rows .f32) (lbl : IVec Rows 32)
    (hs : ∀ j, ∃ r : ℝ, rs j = (r : EReal)) (hq : ∀ j, ∃ r : ℝ, rq j = (r : EReal)) :
    ∀ j, ∃ r : ℝ, margin rs rq lbl j = (r : EReal) := by
  intro j
  rw [margin_apply]
  exact classMargin_real rs rq lbl hs hq _

end Cert.MarginLoss

end
-- ==== Proof.Bridge.lean ====
/-
  The two programs' results are one number.

  On finite scores and labels in range, row by row: the kernel's masks "the label's word is column k's word" keep exactly
  the label's column, so its two masked sums are the sums that leave out, or keep only, the label's entry; its row sums
  are the reference's (a sum started at zero); the margin of a row is a real number, since every group sum, count, mean
  and variance is; and then the row's loss computed from the four kept numbers is the row's loss computed as a
  log-softmax of the patched row (a log-sum-exp does not depend on its shift). The two means are then the same sum over
  the rows, over the same word.
-/
import proofs.«102043_j48644799594926_2_alg».proof.Proof.RowLaw
import proofs.«102043_j48644799594926_2_alg».proof.Proof.MarginReal
import proofs.«102043_j48644799594926_2_alg».proof.Proof.Ix

noncomputable section

namespace Cert.MarginLoss

open Idealize.ShloMosaic Idealize.ShloMosaic.ValueIdx

/-- The kernel's row sums are the reference's: a sum started at zero is the sum. -/
theorem rowsum_eq (x : FVec Ideal Scores .f32) : kerRowSum x = refRowSum x := funext fun _ => (zero_add _).symm
theorem rowsq_eq (x : FVec Ideal Scores .f32) : kerRowSq x = refRowSq x := funext fun _ => (zero_add _).symm

/-- A label's word in range is the word of column k exactly when k is the label's class. -/
theorem word_eq_iff (w : BitVec 32) (hw : w.toNat < 2048) (k : Fin 2048) :
    w = BitVec.ofNat 32 k.val ↔ k = (⟨w.toNat % 2048, Nat.mod_lt _ (by decide)⟩ : Fin 2048) := by
  have hk := k.isLt
  constructor
  · intro h
    apply Fin.ext
    show k.val = w.toNat % 2048
    rw [h, BitVec.toNat_ofNat]
    have e : (2 : ℕ) ^ 32 = 4294967296 := by norm_num
    rw [e]; omega
  · intro h
    have hk2 : k.val = w.toNat := by rw [h]; exact Nat.mod_eq_of_lt hw
    apply BitVec.eq_of_toNat_eq
    rw [BitVec.toNat_ofNat, hk2]
    omega

/-- On real scores the reference's row sums are real. -/
theorem refRowSum_real (x : FVec Ideal Scores .f32) (hx : ∀ i, ∃ r : ℝ, x i = (r : EReal)) :
    ∀ j, ∃ r : ℝ, refRowSum x j = (r : EReal) := by
  choose xr hxr using hx
  intro j
  refine ⟨∑ k : Fin 2048, xr (ix2 (rowIx j) k), ?_⟩
  unfold refRowSum
  rw [zero_add, coe_finset_sum]
  exact Finset.sum_congr rfl fun k _ => hxr _

/-- On real scores the reference's row sums of squares are real. -/
theorem refRowSq_real (x : FVec Ideal Scores .f32) (hx : ∀ i, ∃ r : ℝ, x i = (r : EReal)) :
    ∀ j, ∃ r : ℝ, refRowSq x j = (r : EReal) := by
  choose xr hxr using hx
  intro j
  refine ⟨∑ k : Fin 2048, xr (ix2 (rowIx j) k) * xr (ix2 (rowIx j) k), ?_⟩
  unfold refRowSq
  rw [zero_add, coe_finset_sum]
  exact Finset.sum_congr rfl fun k _ => by rw [hxr, EReal.coe_mul]

/-- Row by row, the kernel's loss is the reference's. -/
theorem kerLoss_eq_refLoss (x : FVec Ideal Scores .f32) (lbl : IVec Rows 32)
    (hx : ∀ i, ∃ r : ℝ, x i = (r : EReal)) (hl : ∀ i, (lbl i).toNat < 2048) (n : Fin 32768) :
    kerLoss x lbl n = refLoss x lbl n := by
  obtain ⟨s, hs, hsw⟩ := scale_word
  obtain ⟨μ, hμ⟩ := margin_real (refRowSum x) (refRowSq x) lbl (refRowSum_real x hx) (refRowSq_real x hx) (ix1 n)
  choose xr hxr using hx
  have hrow : rowOf x n = fun k => ((xr (ix2 n k) : ℝ) : EReal) := funext fun k => hxr _
  have hrest : kerRest x lbl n = restExp (rowOf x n) (labelOf lbl n) :=
    Finset.sum_congr rfl fun k _ => if_congr (word_eq_iff _ (hl _) k) rfl rfl
  have hpick : kerPicked x lbl n = picked (rowOf x n) (labelOf lbl n) :=
    Finset.sum_congr rfl fun k _ => if_congr (word_eq_iff _ (hl _) k) rfl rfl
  unfold kerLoss refLoss
  rw [rowsum_eq, rowsq_eq, hrest, hpick, hμ, hxr (ix2 n (labelOf lbl n)), hrow,
    show scaleW = (s : EReal) from hsw]
  exact lossOfStats_eq_lossOfRow s hs (fun k => xr (ix2 n k)) (labelOf lbl n) μ

/-- The two means are one number. -/
theorem kerMean_eq_refMean (x : FVec Ideal Scores .f32) (lbl : IVec Rows 32)
    (hx : ∀ i, ∃ r : ℝ, x i = (r : EReal)) (hl : ∀ i, (lbl i).toNat < 2048) :
    kerMean x lbl = refMean x lbl := by
  unfold kerMean refMean
  rw [sum_col (kerLoss x lbl), sum_row (refLoss x lbl)]
  refine congrArg (fun S => Ideal.div (0 + S) (Ideal.ofBits .f32 0x47000000#32)) ?_
  exact Finset.sum_congr rfl fun n _ => kerLoss_eq_refLoss x lbl hx hl n

end Cert.MarginLoss

end
-- ==== Proof.lean ====
/-
  The certificate: a margin-adjusted cross-entropy, computed by two kernel launches and by a plain reference.

  Both programs take 32768 rows of 2048 scores and one label per row, and return one number: the mean over the rows of
  the loss  log (Σ_{k ≠ l} e^{x_k} + e^{v}) − v,  where l is the row's label and v the label's score minus the margin of
  the label's class (half the standard deviation of that class's scores), divided by the fixed scale when the score is
  positive and multiplied by it otherwise.

  The kernel streams the scores once, keeping five numbers per row (the row's maximum, the masked sum of shifted
  exponentials, the label's score as a masked sum, the row's sum and sum of squares); host operations turn the sums into
  the rows' margins; a second launch combines four numbers per row into the row's loss; host operations take the mean. The
  reference patches the label's entry of every row and takes the log-softmax there. On finite scores and labels in range
  the two results are the same extended real: a log-sum-exp does not depend on the real number its exponents are shifted
  by, and every number on the way is real.

  The frames of the two kernel programs are the generated ones; the reference's frame is its run with the result
  dropped; the idealization rewrote nothing, so `preserves` has nothing to say.
-/
import proofs.«102043_j48644799594926_2_alg».proof.Defs
import proofs.«102043_j48644799594926_2_alg».proof.Proof.Gen.Kernel
import proofs.«102043_j48644799594926_2_alg».proof.Proof.Gen.Kernel.Skeleton
import proofs.«102043_j48644799594926_2_alg».proof.Proof.Gen.Kernel.Launch
import proofs.«102043_j48644799594926_2_alg».proof.Proof.Gen.Kernel.Points
import proofs.«102043_j48644799594926_2_alg».proof.Proof.Gen.Kernel.Frame
import proofs.«102043_j48644799594926_2_alg».proof.Proof.Gen.KernelIdeal
import proofs.«102043_j48644799594926_2_alg».proof.Proof.Gen.KernelIdeal.Skeleton
import proofs.«102043_j48644799594926_2_alg».proof.Proof.Gen.KernelIdeal.Launch
import proofs.«102043_j48644799594926_2_alg».proof.Proof.Gen.KernelIdeal.Points
import proofs.«102043_j48644799594926_2_alg».proof.Proof.Gen.KernelIdeal.Frame
import proofs.«102043_j48644799594926_2_alg».proof.Proof.Gen.ReferenceIdeal
import proofs.«102043_j48644799594926_2_alg».proof.Proof.Gen.Pre_finite_inputs
import proofs.«102043_j48644799594926_2_alg».proof.Proof.KRun
import proofs.«102043_j48644799594926_2_alg».proof.Proof.KValue
import proofs.«102043_j48644799594926_2_alg».proof.Proof.RefFold
import proofs.«102043_j48644799594926_2_alg».proof.Proof.RefValue
import proofs.«102043_j48644799594926_2_alg».proof.Proof.PreDecode
import proofs.«102043_j48644799594926_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the scores and the labels, finite scores and labels in range: the kernel program ends
    with the mean of the rows' losses as it computes them, the reference with the mean as it computes them, and the two
    means are one number. -/
theorem algebraic : Cert.algebraic_KernelIdeal_ReferenceIdeal := by
  intro m ρ m' ρ' hpre hagree
  refine ⟨fun c => fun _ => Cert.MarginLoss.kerMean
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.MarginLoss.ker_value m ρ c), (h c).2⟩)
      (Cert.KernelIdeal.RunValue.run_value (F := Ideal) m ρ)
  · refine (θ_run Cert.ReferenceIdeal.defs _ _).mono (fun r h c => ⟨?_, (h c).2⟩)
      (Cert.ReferenceIdeal.Value.run (F := Ideal) m' ρ')
    obtain ⟨hx, hl⟩ := Cert.MarginLoss.pre_decode _ _ (hpre c)
    rw [(h c).1, Cert.MarginLoss.ref_fold_eq m' c, (hagree c).1, (hagree c).2]
    funext i
    rw [Cert.MarginLoss.ref_value _ _ hl i]
    exact (Cert.MarginLoss.kerMean_eq_refMean _ _ hx hl).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
